-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S192x32 : Shape := ⟨2, ![192, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x32 : S_.BroadcastsInDim S192x32 (![] : Fin 0 → Fin S192x32.rank)
  reducesTo_S192x32_S_d0_1 : S192x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32 .f32) (main_v48 : IVec S_ 1) (main_v49 : FVec F S192x32 .f32) (main_v50 : FVec F S192x32 .f32) : IVec S_ 1 :=
  let main_v51 : IVec S192x32 1 := cmpf .olt main_v49 main_v50
  let main_c_19 : IVec S_ 1 := constantI S_ 1 1#1
  let main_v52 : IVec S_ 1 := (fun x v => Host.reduce IntOp.andi x v reducesTo_S192x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S64x64 .f32) (main_arg9 : FVec F S64 .f32) (main_arg10 : FVec F S64x64 .f32) (main_arg11 : FVec F S192x32 .f32) (main_arg12 : FVec F S32 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S192x32 .f32 := Host.absf main_arg11
  let main_cst_18 : FVec F S_ .f32 := constant S_ .f32 0x7F800000#32
  let main_v50 : FVec F S192x32 .f32 := broadcastInDim S192x32 ![] bcast_S_S192x32 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S192x32 .f32) (main_arg12 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S192x32 .f32) (main_arg12 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S192x32 : Shape := ⟨2, ![192, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S10000x64 : Shape := ⟨2, ![10000, 64]⟩
abbrev S10000x1 : Shape := ⟨2, ![10000, 1]⟩
abbrev S1x32 : Shape := ⟨2, ![1, 32]⟩
abbrev S64x32 : Shape := ⟨2, ![64, 32]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩

abbrev nBuf : Space → Nat
  | .hbm => 84
  | .vmem => 39
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S192x32, .f32⟩
  | .hbm, ⟨12, _⟩ => ⟨S32, .f32⟩
  | .hbm, ⟨13, _⟩ => ⟨S1x1200000, .i32⟩
  | .hbm, ⟨14, _⟩ => ⟨S1200000, .i32⟩
  | .hbm, ⟨15, _⟩ => ⟨S1x1200000, .i32⟩
  | .hbm, ⟨16, _⟩ => ⟨S1200000, .i32⟩
  | .hbm, ⟨17, _⟩ => ⟨S_, .f32⟩
  | .hbm, ⟨18, _⟩ => ⟨S1200000, .f32⟩
  | .hbm, ⟨19, _⟩ => ⟨S_, .f32⟩
  | .hbm, ⟨20, _⟩ => ⟨S100000, .f32⟩
  | .hbm, ⟨21, _⟩ => ⟨S1200000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .bf16⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000x64, .bf16⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S1x64, .f32⟩
  | .hbm, ⟨47, _⟩ => ⟨S100000x64, .bf16⟩
  | .hbm, ⟨48, _⟩ => ⟨S_, .i32⟩
  | .hbm, ⟨49, _⟩ => ⟨S1200000, .i32⟩
  | .hbm, ⟨50, _⟩ => ⟨S1200000, .i1⟩
  | .hbm, ⟨51, _⟩ => ⟨S_, .i32⟩
  | .hbm, ⟨52, _⟩ => ⟨S1200000, .i32⟩
  | .hbm, ⟨53, _⟩ => ⟨S1200000, .i32⟩
  | .hbm, ⟨54, _⟩ => ⟨S1200000, .i32⟩
  | .hbm, ⟨55, _⟩ => ⟨S1200000x1, .i32⟩
  | .hbm, ⟨56, _⟩ => ⟨S1200000x64, .bf16⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S1x64, .f32⟩
  | .hbm, ⟨63, _⟩ => ⟨S100000x64, .bf16⟩
  | .hbm, ⟨64, _⟩ => ⟨S_, .i32⟩
  | .hbm, ⟨65, _⟩ => ⟨S1200000, .i32⟩
  | .hbm, ⟨66, _⟩ => ⟨S1200000, .i1⟩
  | .hbm, ⟨67, _⟩ => ⟨S_, .i32⟩
  | .hbm, ⟨68, _⟩ => ⟨S1200000, .i32⟩
  | .hbm, ⟨69, _⟩ => ⟨S1200000, .i32⟩
  | .hbm, ⟨70, _⟩ => ⟨S1200000, .i32⟩
  | .hbm, ⟨71, _⟩ => ⟨S1200000x1, .i32⟩
  | .hbm, ⟨72, _⟩ => ⟨S1200000x64, .bf16⟩
  | .hbm, ⟨73, _⟩ => ⟨S1200000x64, .f32⟩
  | .hbm, ⟨74, _⟩ => ⟨S_, .f32⟩
  | .hbm, ⟨75, _⟩ => ⟨S100000x64, .f32⟩
  | .hbm, ⟨76, _⟩ => ⟨S1200000x1, .i32⟩
  | .hbm, ⟨77, _⟩ => ⟨S100000x64, .f32⟩
  | .hbm, ⟨78, _⟩ => ⟨S1x64, .f32⟩
  | .hbm, ⟨79, _⟩ => ⟨S1x32, .f32⟩
  | .hbm, ⟨80, _⟩ => ⟨S64x32, .f32⟩
  | .hbm, ⟨81, _⟩ => ⟨S64x32, .f32⟩
  | .hbm, ⟨82, _⟩ => ⟨S64x32, .f32⟩
  | .hbm, ⟨83, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .bf16⟩
  | .local _ .vmem, ⟨5, _⟩ => ⟨S10000x64, .bf16⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .bf16⟩
  | .local _ .vmem, ⟨16, _⟩ => ⟨S10000x64, .bf16⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .bf16⟩
  | .local _ .vmem, ⟨21, _⟩ => ⟨S10000x64, .bf16⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .bf16⟩
  | .local _ .vmem, ⟨27, _⟩ => ⟨S5000x64, .bf16⟩
  | .local _ .vmem, ⟨28, _⟩ => ⟨S5000x64, .bf16⟩
  | .local _ .vmem, ⟨29, _⟩ => ⟨S5000x64, .bf16⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S64x32, .f32⟩
  | .local _ .vmem, ⟨34, _⟩ => ⟨S64x32, .f32⟩
  | .local _ .vmem, ⟨35, _⟩ => ⟨S64x32, .f32⟩
  | .local _ .vmem, ⟨36, _⟩ => ⟨S1x32, .f32⟩
  | .local _ .vmem, ⟨37, _⟩ => ⟨S5000x32, .f32⟩
  | .local _ .vmem, ⟨38, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg11_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem11_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x32 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  shapeCasts_S32_S1x32 : S32.ShapeCasts S1x32
  slices_S192x32_S64x32_0_0 : S192x32.Slices ![0, 0] S64x32
  slices_S192x32_S64x32_64_0 : S192x32.Slices ![64, 0] S64x32
  slices_S192x32_S64x32_128_0 : S192x32.Slices ![128, 0] S64x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .bf16 = 32 ∨ (Rect.block (s := S100000x64) S10000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .bf16 = 32 ∨ (Rect.block (s := S100000x64) S10000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .bf16 = 32 ∨ (Rect.block (s := S100000x64) S10000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .bf16 = 32 ∨ (Rect.block (s := S100000x64) S5000x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x32.size a ≤ S64x32.size a
  hwx2_7 : ∀ i : grid2.Coords, EltTy.bits .f32 = 32 ∨ (Rect.block (s := S64x32) S64x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x32.size a ≤ S64x32.size a
  hwx2_8 : ∀ i : grid2.Coords, EltTy.bits .f32 = 32 ∨ (Rect.block (s := S64x32) S64x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x32.size a ≤ S64x32.size a
  hwx2_9 : ∀ i : grid2.Coords, EltTy.bits .f32 = 32 ∨ (Rect.block (s := S64x32) S64x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x32.size a ≤ S100000x32.size a
  hwx2_11 : ∀ i : grid2.Coords, EltTy.bits .f32 = 32 ∨ (Rect.block (s := S100000x32) S5000x32.size (cc2_transform_11 i) (hinb2_11 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v23) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S64x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v53) S64x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v54) S64x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v51) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v55) S5000x32.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S192x32 : Shape := ⟨2, ![192, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S100000x192 : Shape := ⟨2, ![100000, 192]⟩
abbrev S100000x32 : Shape := ⟨2, ![100000, 32]⟩
abbrev S1x32 : Shape := ⟨2, ![1, 32]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S192x32, .f32⟩
  | .hbm, ⟨12, _⟩ => ⟨S32, .f32⟩
  | .hbm, ⟨13, _⟩ => ⟨S1x1200000, .i32⟩
  | .hbm, ⟨14, _⟩ => ⟨S1200000, .i32⟩
  | .hbm, ⟨15, _⟩ => ⟨S1x1200000, .i32⟩
  | .hbm, ⟨16, _⟩ => ⟨S1200000, .i32⟩
  | .hbm, ⟨17, _⟩ => ⟨S_, .f32⟩
  | .hbm, ⟨18, _⟩ => ⟨S1200000, .f32⟩
  | .hbm, ⟨19, _⟩ => ⟨S_, .f32⟩
  | .hbm, ⟨20, _⟩ => ⟨S100000, .f32⟩
  | .hbm, ⟨21, _⟩ => ⟨S1200000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S_, .f32⟩
  | .hbm, ⟨38, _⟩ => ⟨S100000x64, .f32⟩
  | .hbm, ⟨39, _⟩ => ⟨S1200000x1, .i32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x64, .f32⟩
  | .hbm, ⟨61, _⟩ => ⟨S_, .f32⟩
  | .hbm, ⟨62, _⟩ => ⟨S100000x64, .f32⟩
  | .hbm, ⟨63, _⟩ => ⟨S1200000x1, .i32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1200000, .i32⟩
  | .hbm, ⟨78, _⟩ => ⟨S1200000, .i1⟩
  | .hbm, ⟨79, _⟩ => ⟨S_, .i32⟩
  | .hbm, ⟨80, _⟩ => ⟨S1200000, .i32⟩
  | .hbm, ⟨81, _⟩ => ⟨S1200000, .i32⟩
  | .hbm, ⟨82, _⟩ => ⟨S1200000, .i32⟩
  | .hbm, ⟨83, _⟩ => ⟨S1200000x1, .i32⟩
  | .hbm, ⟨84, _⟩ => ⟨S1200000x64, .f32⟩
  | .hbm, ⟨85, _⟩ => ⟨S_, .f32⟩
  | .hbm, ⟨86, _⟩ => ⟨S100000x64, .f32⟩
  | .hbm, ⟨87, _⟩ => ⟨S1200000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S100000x192, .f32⟩
  | .hbm, ⟨101, _⟩ => ⟨S100000x32, .f32⟩
  | .hbm, ⟨102, _⟩ => ⟨S1x32, .f32⟩
  | .hbm, ⟨103, _⟩ => ⟨S100000x32, .f32⟩
  | .hbm, ⟨104, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call2_cst : Ref sig .tc := ⟨.hbm, 73, rfl⟩
abbrev main_call2_v0 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call3_cst : Ref sig .tc := ⟨.hbm, 97, rfl⟩
abbrev main_call3_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x64_S100000x192_d1 : Shape.Concatenates [S100000x64, S100000x64, S100000x64] S100000x192 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x192_S192x32_S100000x32_1_0_0_1_n_n_wf : DotDims.WF S100000x192 S192x32 S100000x32 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x192_S192x32_S100000x32_1_0_0_1_n_n : DotDims S100000x192 S192x32 S100000x32 where
  lhsContracting := [1]
  rhsContracting := [0]
  lhsNonContracting := [0]
  rhsNonContracting := [1]
  lhsBatch := []
  rhsBatch := []
  wf := dot_S100000x192_S192x32_S100000x32_1_0_0_1_n_n_wf

class Facts : Prop extends Facts₀ where

variable [Facts]
-- ==== Proof.KRun.lean ====
/-
  The kernel program's run with its result named.

  The program is three pipelined regions among stretches of host operations. Its buffers' contents at each boundary are a
  fold from the launch memory: a stretch of host operations applies them, a region replaces its arrays by what its grid
  points' write-backs leave. The program's frame theorem shows that every weakly fair execution ends with every unscoped
  buffer at the last boundary's contents `W8`, and keeps of that only the argument arrays. Here the same run is stated
  with the result buffer kept too: it ends at `W8`'s contents for that buffer.
-/
import proofs.«181150_j87256555585790_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.KRun

end
-- ==== Proof.FoldHost.lean ====
/-
  The host operations between the regions, as functions of the buffers they read.

  Each stretch of host operations is read here at the buffers the regions consume, from ANY contents `Vl` of the
  buffers before the stretch: the source and destination node of every edge (two rows of the edge array), the number
  of edges arriving at each node (a scatter-add of ones), the degree `max(1, count)` and its reciprocal as a column,
  and the neighbour sum of a feature array (gather the source rows, scatter-add them at the destinations). A source
  index below zero is first wrapped by the number of nodes, as the program prints it. Buffers a stretch does not
  write keep their contents.
-/
import proofs.«181150_j87256555585790_2_alg».proof.Proof.Gen.KernelIdeal.Frame
import Idealize.ShloMosaic.PureOps.Ideal
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.StableHlo Idealize.SL.Sem

/-! ## The host terms -/

/-- Every edge's source node: row 0 of the edge array. -/
def src (E : (⟨S2x1200000, .i32⟩ : BufTy).Contents (Elt Ideal)) : (⟨S1200000, .i32⟩ : BufTy).Contents (Elt Ideal) :=
  shapeCast S1200000 (extractStridedSlice S1x1200000 ![0, 0] E slices_S2x1200000_S1x1200000_0_0) shapeCasts_S1x1200000_S1200000

/-- Every edge's destination node: row 1 of the edge array. -/
def dst (E : (⟨S2x1200000, .i32⟩ : BufTy).Contents (Elt Ideal)) : (⟨S1200000, .i32⟩ : BufTy).Contents (Elt Ideal) :=
  shapeCast S1200000 (extractStridedSlice S1x1200000 ![1, 0] E slices_S2x1200000_S1x1200000_1_0) shapeCasts_S1x1200000_S1200000

/-- The number of edges arriving at each node: ones scatter-added at the destinations. -/
def cnt (d : (⟨S1200000, .i32⟩ : BufTy).Contents (Elt Ideal)) : (⟨S100000, .f32⟩ : BufTy).Contents (Elt Ideal) :=
  Host.scatterAdd scatter_S100000_S1200000x1_S1200000_n_0_0_1
    (broadcastInDim S100000 ![] bcast_S_S100000 (constant (F := Ideal) S_ .f32 0x00000000#32))
    (broadcastInDim S1200000x1 ![0] bcast_S1200000_S1200000x1_0 d)
    (broadcastInDim S1200000 ![] bcast_S_S1200000 (constant (F := Ideal) S_ .f32 0x3F800000#32))

/-- The degree: the larger of a constant (the program's `1.0`) and the count. -/
def deg (one : FVec Ideal S_ .f32) (cn : FVec Ideal S100000 .f32) : FVec Ideal S100000 .f32 :=
  maximumf (F := Ideal) (s := S100000) (φ := .f32) (broadcastInDim S100000 ![] bcast_S_S100000 (id one)) cn

/-- The reciprocal degree, as a column. -/
def inv (dg : (⟨S100000, .f32⟩ : BufTy).Contents (Elt Ideal)) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32)) dg)

/-- The neighbour sum of a feature array: gather each edge's source row, scatter-add it at the edge's destination. -/
def agg (s d : (⟨S1200000, .i32⟩ : BufTy).Contents (Elt Ideal)) (h : (⟨S100000x64, .bf16⟩ : BufTy).Contents (Elt Ideal)) :
    (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (extf .f32 (Host.gather gather_S100000x64_S1200000x1_S1200000x64_1_0_n_n_0_1_164 h
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32))) s))) bitsLt_bf16_f32)

/-! ## The first stretch: the edges' endpoints and the count -/

set_option maxHeartbeats 4000000 in
/-- The sources. -/
theorem h0_v1 (Vl : Valuation τ sig (Elt Ideal)) :
    StableHlo.after hostOps0 Vl (Proc.devRef .tc main_v1) = src (Vl (Proc.devRef .tc main_arg1)) := by
  simp only [hostOps0]
  after_results_simp
  try rfl

set_option maxHeartbeats 4000000 in
/-- The destinations. -/
theorem h0_v3 (Vl : Valuation τ sig (Elt Ideal)) :
    StableHlo.after hostOps0 Vl (Proc.devRef .tc main_v3) = dst (Vl (Proc.devRef .tc main_arg1)) := by
  simp only [hostOps0]
  after_results_simp
  try rfl

set_option maxHeartbeats 4000000 in
/-- The count of arriving edges. -/
theorem h0_v7 (Vl : Valuation τ sig (Elt Ideal)) :
    StableHlo.after hostOps0 Vl (Proc.devRef .tc main_v7) = cnt (dst (Vl (Proc.devRef .tc main_arg1))) := by
  simp only [hostOps0]
  after_results_simp
  try rfl

set_option maxHeartbeats 4000000 in
/-- The constant the degree is clipped at. -/
theorem h0_cst1 (Vl : Valuation τ sig (Elt Ideal)) :
    StableHlo.after hostOps0 Vl (Proc.devRef .tc main_cst_1) = constant (F := Ideal) S_ .f32 0x3F800000#32 := by
  simp only [hostOps0]
  after_results_simp
  try rfl

/-- A buffer that no operation of this stretch writes keeps its contents. -/
theorem keep0 (Vl : Valuation τ sig (Elt Ideal)) (b : Ref sig .tc)
    (hb : ∀ w ∈ ([main_v0, main_v1, main_v2, main_v3, main_cst, main_v4, main_cst_0, main_v5, main_v6, main_v7, main_cst_1] : List (Ref sig .tc)), b ≠ w) :
    StableHlo.after hostOps0 Vl (Proc.devRef .tc b) = Vl (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by simp))))

/-! ## The clip -/

set_option maxHeartbeats 4000000 in
/-- The degree. -/
theorem h01_v8 (Vl : Valuation τ sig (Elt Ideal)) :
    StableHlo.after hostOps0_1 Vl (Proc.devRef .tc main_v8) = deg (Vl (Proc.devRef .tc main_cst_1)) (Vl (Proc.devRef .tc main_v7)) := by
  simp only [hostOps0_1]
  after_results_simp
  try rfl

/-- A buffer that no operation of this stretch writes keeps its contents. -/
theorem keep01 (Vl : Valuation τ sig (Elt Ideal)) (b : Ref sig .tc)
    (hb : ∀ w ∈ ([main_call0_v0, main_call0_v1, main_v8] : List (Ref sig .tc)), b ≠ w) :
    StableHlo.after hostOps0_1 Vl (Proc.devRef .tc b) = Vl (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by simp))))

/-! ## The stretch before region 0 -/

set_option maxHeartbeats 4000000 in
/-- The reciprocal degrees. -/
theorem h02_v11 (Vl : Valuation τ sig (Elt Ideal)) :
    StableHlo.after hostOps0_2 Vl (Proc.devRef .tc main_v11) = inv (Vl (Proc.devRef .tc main_v8)) := by
  simp only [hostOps0_2]
  after_results_simp
  try rfl

set_option maxHeartbeats 4000000 in
/-- The node features in the narrower format. -/
theorem h02_v12 (Vl : Valuation τ sig (Elt Ideal)) :
    StableHlo.after hostOps0_2 Vl (Proc.devRef .tc main_v12) = truncf (F := Ideal) (s := S100000x64) (φ := .f32) .bf16 (Vl (Proc.devRef .tc main_arg0)) bitsLt_bf16_f32 := by
  simp only [hostOps0_2]
  after_results_simp
  try rfl

set_option maxHeartbeats 4000000 in
/-- The neighbour sum of the node features. -/
theorem h02_v23 (Vl : Valuation τ sig (Elt Ideal)) :
    StableHlo.after hostOps0_2 Vl (Proc.devRef .tc main_v23) = agg (Vl (Proc.devRef .tc main_v1)) (Vl (Proc.devRef .tc main_v3)) (truncf (F := Ideal) (s := S100000x64) (φ := .f32) .bf16 (Vl (Proc.devRef .tc main_arg0)) bitsLt_bf16_f32) := by
  simp only [hostOps0_2]
  after_results_simp
  try rfl

set_option maxHeartbeats 4000000 in
/-- The first bias as a row. -/
theorem h02_v24 (Vl : Valuation τ sig (Elt Ideal)) :
    StableHlo.after hostOps0_2 Vl (Proc.devRef .tc main_v24) = shapeCast S1x64 (Vl (Proc.devRef .tc main_arg3)) shapeCasts_S64_S1x64 := by
  simp only [hostOps0_2]
  after_results_simp
  try rfl

/-- A buffer that no operation of this stretch writes keeps its contents. -/
theorem keep02 (Vl : Valuation τ sig (Elt Ideal)) (b : Ref sig .tc)
    (hb : ∀ w ∈ ([main_cst_2, main_v9, main_v10, main_v11, main_v12, main_c, main_v13, main_v14, main_c_3, main_v15, main_v16, main_v17, main_v18, main_v19, main_v20, main_cst_4, main_v21, main_v22, main_v23, main_v24] : List (Ref sig .tc)), b ≠ w) :
    StableHlo.after hostOps0_2 Vl (Proc.devRef .tc b) = Vl (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by simp))))

/-! ## The stretch before region 1 -/

set_option maxHeartbeats 4000000 in
/-- The neighbour sum of the first hidden layer. -/
theorem h1_v36 (Vl : Valuation τ sig (Elt Ideal)) :
    StableHlo.after hostOps1 Vl (Proc.devRef .tc main_v36) = agg (Vl (Proc.devRef .tc main_v1)) (Vl (Proc.devRef .tc main_v3)) (Vl (Proc.devRef .tc main_v25)) := by
  simp only [hostOps1]
  after_results_simp
  try rfl

set_option maxHeartbeats 4000000 in
/-- The second bias as a row. -/
theorem h1_v37 (Vl : Valuation τ sig (Elt Ideal)) :
    StableHlo.after hostOps1 Vl (Proc.devRef .tc main_v37) = shapeCast S1x64 (Vl (Proc.devRef .tc main_arg6)) shapeCasts_S64_S1x64 := by
  simp only [hostOps1]
  after_results_simp
  try rfl

/-- A buffer that no operation of this stretch writes keeps its contents. -/
theorem keep1 (Vl : Valuation τ sig (Elt Ideal)) (b : Ref sig .tc)
    (hb : ∀ w ∈ ([main_c_5, main_v26, main_v27, main_c_6, main_v28, main_v29, main_v30, main_v31, main_v32, main_v33, main_cst_7, main_v34, main_v35, main_v36, main_v37] : List (Ref sig .tc)), b ≠ w) :
    StableHlo.after hostOps1 Vl (Proc.devRef .tc b) = Vl (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by simp))))

/-! ## The stretch before region 2 -/

set_option maxHeartbeats 4000000 in
/-- The neighbour sum of the second hidden layer. -/
theorem h2_v49 (Vl : Valuation τ sig (Elt Ideal)) :
    StableHlo.after hostOps2 Vl (Proc.devRef .tc main_v49) = agg (Vl (Proc.devRef .tc main_v1)) (Vl (Proc.devRef .tc main_v3)) (Vl (Proc.devRef .tc main_v38)) := by
  simp only [hostOps2]
  after_results_simp
  try rfl

set_option maxHeartbeats 4000000 in
/-- The third bias as a row. -/
theorem h2_v50 (Vl : Valuation τ sig (Elt Ideal)) :
    StableHlo.after hostOps2 Vl (Proc.devRef .tc main_v50) = shapeCast S1x64 (Vl (Proc.devRef .tc main_arg9)) shapeCasts_S64_S1x64 := by
  simp only [hostOps2]
  after_results_simp
  try rfl

set_option maxHeartbeats 4000000 in
/-- The output bias as a row. -/
theorem h2_v51 (Vl : Valuation τ sig (Elt Ideal)) :
    StableHlo.after hostOps2 Vl (Proc.devRef .tc main_v51) = shapeCast S1x32 (Vl (Proc.devRef .tc main_arg12)) shapeCasts_S32_S1x32 := by
  simp only [hostOps2]
  after_results_simp
  try rfl

set_option maxHeartbeats 4000000 in
/-- Rows 0 to 63 of the output matrix. -/
theorem h2_v52 (Vl : Valuation τ sig (Elt Ideal)) :
    StableHlo.after hostOps2 Vl (Proc.devRef .tc main_v52) = extractStridedSlice S64x32 ![0, 0] (Vl (Proc.devRef .tc main_arg11)) slices_S192x32_S64x32_0_0 := by
  simp only [hostOps2]
  after_results_simp
  try rfl

set_option maxHeartbeats 4000000 in
/-- Rows 64 to 127 of the output matrix. -/
theorem h2_v53 (Vl : Valuation τ sig (Elt Ideal)) :
    StableHlo.after hostOps2 Vl (Proc.devRef .tc main_v53) = extractStridedSlice S64x32 ![64, 0] (Vl (Proc.devRef .tc main_arg11)) slices_S192x32_S64x32_64_0 := by
  simp only [hostOps2]
  after_results_simp
  try rfl

set_option maxHeartbeats 4000000 in
/-- Rows 128 to 191 of the output matrix. -/
theorem h2_v54 (Vl : Valuation τ sig (Elt Ideal)) :
    StableHlo.after hostOps2 Vl (Proc.devRef .tc main_v54) = extractStridedSlice S64x32 ![128, 0] (Vl (Proc.devRef .tc main_arg11)) slices_S192x32_S64x32_128_0 := by
  simp only [hostOps2]
  after_results_simp
  try rfl

/-- A buffer that no operation of this stretch writes keeps its contents. -/
theorem keep2 (Vl : Valuation τ sig (Elt Ideal)) (b : Ref sig .tc)
    (hb : ∀ w ∈ ([main_c_8, main_v39, main_v40, main_c_9, main_v41, main_v42, main_v43, main_v44, main_v45, main_v46, main_cst_10, main_v47, main_v48, main_v49, main_v50, main_v51, main_v52, main_v53, main_v54] : List (Ref sig .tc)), b ≠ w) :
    StableHlo.after hostOps2 Vl (Proc.devRef .tc b) = Vl (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (hb _ (by simp))))

end Cert.KernelIdeal.Glue

end
-- ==== Proof.Spec.lean ====
/-
  The mathematics of a three-layer mean-aggregation graph network, on the extended reals.

  A hidden layer takes, for every node `p`, the row `a p` of summed neighbour features, the node's own row `h p`, a
  degree `d p`, two `64 × 64` weight matrices and a bias, and returns

      max (∑ k, (a p k / d p) · Wl k q  +  bl q  +  ∑ k, h p k · Wr k q)  z .

  One program divides by the degree (`hidR`); the other multiplies by the reciprocal `1 / d p` computed beforehand and adds
  the bias last (`hidK`). On the extended reals `x · (1 / d) = x / d` for every `x` as soon as `d ≠ 0` (both are
  `x · d⁻¹`), and addition is commutative and associative, so the two agree (`hid_eq`) with no finiteness assumed.

  The output layer multiplies the three hidden layers, laid side by side, by a `192 × 32` matrix; written as three
  products with the matrix's three row blocks it is `outK`, and `sum192` is the split of a sum of 192 terms into three
  sums of 64.
-/
import Idealize.ShloMosaic.PureOps.Ideal
import Idealize.ShloMosaic.Lib.ValueIdx

noncomputable section

namespace Cert.Sage

open Idealize.ShloMosaic Idealize.ShloMosaic.ValueIdx

/-- An `a × b` matrix of extended reals, as a function of the index. -/
abbrev M (a b : ℕ) := (⟨2, ![a, b]⟩ : Shape).Idx → EReal

/-- Multiplying by the reciprocal of a nonzero extended real is dividing by it: both are `x · d⁻¹`. -/
theorem mul_one_div (x d : EReal) (hd : d ≠ 0) : x * Ideal.div 1 d = Ideal.div x d := by
  unfold Ideal.div
  rw [if_neg hd, if_neg hd, one_mul]

/-- Entry `q` of one node's hidden row, reciprocal degree multiplied in, bias added last. -/
def rowK (a : Fin 64 → EReal) (inv : EReal) (h : Fin 64 → EReal) (Wl Wr : M 64 64) (bl : Fin 64 → EReal) (z : EReal)
    (q : Fin 64) : EReal :=
  max (((∑ k : Fin 64, (a k * inv) * Wl (ix2 k q)) + ∑ k : Fin 64, h k * Wr (ix2 k q)) + bl q) z

/-- Entry `q` of one node's hidden row, divided by the degree, bias added between the two products. -/
def rowR (a : Fin 64 → EReal) (d : EReal) (h : Fin 64 → EReal) (Wl Wr : M 64 64) (bl : Fin 64 → EReal) (z : EReal)
    (q : Fin 64) : EReal :=
  max (((∑ k : Fin 64, Ideal.div (a k) d * Wl (ix2 k q)) + bl q) + ∑ k : Fin 64, h k * Wr (ix2 k q)) z

/-- The two forms of a hidden row agree when the degree is not zero. -/
theorem row_eq (a : Fin 64 → EReal) (d : EReal) (hd : d ≠ 0) (h : Fin 64 → EReal) (Wl Wr : M 64 64) (bl : Fin 64 → EReal)
    (z : EReal) (q : Fin 64) : rowK a (Ideal.div 1 d) h Wl Wr bl z q = rowR a d h Wl Wr bl z q := by
  unfold rowK rowR
  rw [add_right_comm]
  simp only [mul_one_div _ _ hd]

/-- A hidden row depends only on the values of its operands. -/
theorem rowK_congr {a a' : Fin 64 → EReal} {inv inv' : EReal} {h h' : Fin 64 → EReal} {Wl Wl' Wr Wr' : M 64 64}
    {bl bl' : Fin 64 → EReal} (z : EReal) (q : Fin 64) (ha : ∀ k, a k = a' k) (hi : inv = inv') (hh : ∀ k, h k = h' k)
    (hWl : Wl = Wl') (hWr : Wr = Wr') (hb : ∀ q, bl q = bl' q) :
    rowK a inv h Wl Wr bl z q = rowK a' inv' h' Wl' Wr' bl' z q := by
  obtain rfl : a = a' := funext ha
  obtain rfl : h = h' := funext hh
  obtain rfl : bl = bl' := funext hb
  subst hi hWl hWr
  rfl

/-- A hidden layer over `n` nodes, reciprocal-degree form. -/
def hidK {n : ℕ} (a : M n 64) (inv : Fin n → EReal) (h : M n 64) (Wl Wr : M 64 64) (bl : Fin 64 → EReal) (z : EReal) : M n 64 :=
  fun i => rowK (fun k => a (ix2 (i 0) k)) (inv (i 0)) (fun k => h (ix2 (i 0) k)) Wl Wr bl z (i 1)

/-- A hidden layer over `n` nodes, division form. -/
def hidR {n : ℕ} (a : M n 64) (d : Fin n → EReal) (h : M n 64) (Wl Wr : M 64 64) (bl : Fin 64 → EReal) (z : EReal) : M n 64 :=
  fun i => rowR (fun k => a (ix2 (i 0) k)) (d (i 0)) (fun k => h (ix2 (i 0) k)) Wl Wr bl z (i 1)

/-- The two forms of a hidden layer agree when no degree is zero. -/
theorem hid_eq {n : ℕ} (a : M n 64) (d : Fin n → EReal) (hd : ∀ p, d p ≠ 0) (h : M n 64) (Wl Wr : M 64 64)
    (bl : Fin 64 → EReal) (z : EReal) :
    hidK a (fun p => Ideal.div 1 (d p)) h Wl Wr bl z = hidR a d h Wl Wr bl z :=
  funext fun i => row_eq _ _ (hd (i 0)) _ _ _ _ _ _

/-- Rows `o … o + 63` of a `192 × 32` matrix. -/
def rowsFrom (o : ℕ) (ho : o + 64 ≤ 192) (W : M 192 32) : M 64 32 :=
  fun i => W (ix2 (⟨(i 0).val + o, by have := idx2_lt0 i; omega⟩ : Fin 192) (i 1))

/-- Entry `q` of one node's output row: three products and the bias. -/
def rowOut (h0 h1 h2 : Fin 64 → EReal) (w0 w1 w2 : M 64 32) (b : Fin 32 → EReal) (q : Fin 32) : EReal :=
  (((∑ k : Fin 64, h0 k * w0 (ix2 k q)) + ∑ k : Fin 64, h1 k * w1 (ix2 k q)) + ∑ k : Fin 64, h2 k * w2 (ix2 k q)) + b q

/-- An output row depends only on the values of its operands. -/
theorem rowOut_congr {h0 h0' h1 h1' h2 h2' : Fin 64 → EReal} {w0 w0' w1 w1' w2 w2' : M 64 32} {b b' : Fin 32 → EReal} (q : Fin 32)
    (e0 : ∀ k, h0 k = h0' k) (e1 : ∀ k, h1 k = h1' k) (e2 : ∀ k, h2 k = h2' k) (f0 : w0 = w0') (f1 : w1 = w1') (f2 : w2 = w2')
    (hb : ∀ q, b q = b' q) : rowOut h0 h1 h2 w0 w1 w2 b q = rowOut h0' h1' h2' w0' w1' w2' b' q := by
  obtain rfl : h0 = h0' := funext e0
  obtain rfl : h1 = h1' := funext e1
  obtain rfl : h2 = h2' := funext e2
  obtain rfl : b = b' := funext hb
  subst f0 f1 f2
  rfl

/-- The output layer over `n` nodes. -/
def outK {n : ℕ} (h0 h1 h2 : M n 64) (w0 w1 w2 : M 64 32) (b : Fin 32 → EReal) : M n 32 :=
  fun i => rowOut (fun k => h0 (ix2 (i 0) k)) (fun k => h1 (ix2 (i 0) k)) (fun k => h2 (ix2 (i 0) k)) w0 w1 w2 b (i 1)

/-- A sum of 192 terms is the sum of its first, middle and last 64. -/
theorem sum192 (f : Fin 192 → EReal) :
    ∑ k : Fin 192, f k
      = ((∑ k : Fin 64, f ⟨k.val + 0, by omega⟩) + ∑ k : Fin 64, f ⟨k.val + 64, by omega⟩)
          + ∑ k : Fin 64, f ⟨k.val + 128, by omega⟩ := by
  have e : ∑ k : Fin (64 + 64 + 64), f ⟨k.val, k.isLt⟩ = ∑ k : Fin 192, f k := rfl
  rw [← e, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext (by show 64 + k.val = k.val + 64; omega))
  · exact Finset.sum_congr rfl fun k _ => congrArg f (Fin.ext (by show 64 + 64 + k.val = k.val + 128; omega))

end Cert.Sage

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Body.lean ====
/-
  One grid point of a hidden layer, entry by entry.

  The body of the layer's kernel loads a block of summed neighbour rows, the matching block of reciprocal degrees (a
  column), the matching block of the nodes' own rows, two weight matrices and a bias row, and stores
  `max ((a · inv) Wl + h Wr + bl) 0`, all format changes being the identity on the extended reals. Read at entry
  `(p, q)` of the block this is the hidden row `Cert.Sage.rowK` of the block's row `p`: the two matrix products into a
  zero accumulator are plain sums over the 64 features, the column of reciprocal degrees broadcast along the features
  gives row `p`'s reciprocal degree, and the bias row broadcast along the nodes gives entry `q` of the bias.
-/
import proofs.«181150_j87256555585790_2_alg».proof.Proof.Gen.KernelIdeal.Skeleton
import proofs.«181150_j87256555585790_2_alg».proof.Proof.Spec
import proofs.«181150_j87256555585790_2_alg».proof.Proof.LibPlainDot
import proofs.«181150_j87256555585790_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The `[10000, 64] × [64, 64]` product's operand indices -/

theorem dotA_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dotA_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dotA_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dotA_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a `[10000, 64]` block with a `[64, 64]` matrix into the zero accumulator, at `(p, q)`. -/
theorem dotA_apply {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) :=
  Cert.Lib.PlainDot.matmul_zero_ix2 dot_S10000x64_S64x64_S10000x64_1_0_0_1_n_n rfl rfl dotA_l0 dotA_l1 dotA_r0 dotA_r1 none l r p q

/-! ## The stored value at an entry -/

/-- Region 0's stored block at `(p, q)` is the hidden row of the block's row `p`. -/
theorem hidden0_apply (x0 : Vec Ideal S10000x64 .f32) (x1 : Vec Ideal S10000x1 .f32) (x2 : Vec Ideal S10000x64 .bf16)
    (x3 x5 : Vec Ideal S64x64 .f32) (x4 : Vec Ideal S1x64 .f32) (p : Fin 10000) (q : Fin 64) :
    k0_pay1 (F := Ideal) x0 x1 x2 x3 x5 x4 (ix2 p q)
      = Cert.Sage.rowK (fun k => x0 (ix2 p k)) (x1 (ix2 p (0 : Fin 1))) (fun k => x2 (ix2 p k)) x3 x5
          (fun q' => x4 (ix2 (0 : Fin 1) q')) (Ideal.ofBits .f32 0x00000000#32) q := by
  unfold k0_pay1 Cert.Sage.rowK
  simp only [shapeCast_self]
  show max (((matmul (F := Ideal) dot_S10000x64_S64x64_S10000x64_1_0_0_1_n_n none
        (truncf .bf16 (mulf x0 (broadcastTo S10000x64 x1 broadcasts_S10000x1_S10000x64)) bitsLt_bf16_f32)
        (truncf .bf16 x3 bitsLt_bf16_f32) (constant S10000x64 .f32 0x00000000#32) (ix2 p q) : EReal)
      + matmul (F := Ideal) dot_S10000x64_S64x64_S10000x64_1_0_0_1_n_n none x2 (truncf .bf16 x5 bitsLt_bf16_f32)
          (constant S10000x64 .f32 0x00000000#32) (ix2 p q))
      + broadcastTo S10000x64 x4 broadcasts_S1x64_S10000x64 (ix2 p q)) (Ideal.ofBits .f32 0x00000000#32) = _
  refine congrArg₂ max (congrArg₂ (· + ·) (congrArg₂ (· + ·) ?_ ?_) ?_) rfl
  · refine (dotA_apply _ _ p q).trans (Finset.sum_congr rfl fun k _ => ?_)
    show (x0 (ix2 p k) * broadcastTo S10000x64 x1 broadcasts_S10000x1_S10000x64 (ix2 p k)) * x3 (ix2 k q) = _
    rw [Cert.Lib.Columns.broadcastTo_a1_ab_apply]
  · exact dotA_apply _ _ p q
  · exact broadcastTo_1b_ab_apply x4 _ p q

/-- Region 1's stored block at `(p, q)` is the hidden row of the block's row `p`. -/
theorem hidden1_apply (x0 : Vec Ideal S10000x64 .f32) (x1 : Vec Ideal S10000x1 .f32) (x2 : Vec Ideal S10000x64 .bf16)
    (x3 x5 : Vec Ideal S64x64 .f32) (x4 : Vec Ideal S1x64 .f32) (p : Fin 10000) (q : Fin 64) :
    k1_pay1 (F := Ideal) x0 x1 x2 x3 x5 x4 (ix2 p q)
      = Cert.Sage.rowK (fun k => x0 (ix2 p k)) (x1 (ix2 p (0 : Fin 1))) (fun k => x2 (ix2 p k)) x3 x5
          (fun q' => x4 (ix2 (0 : Fin 1) q')) (Ideal.ofBits .f32 0x00000000#32) q := by
  unfold k1_pay1 Cert.Sage.rowK
  simp only [shapeCast_self]
  show max (((matmul (F := Ideal) dot_S10000x64_S64x64_S10000x64_1_0_0_1_n_n none
        (truncf .bf16 (mulf x0 (broadcastTo S10000x64 x1 broadcasts_S10000x1_S10000x64)) bitsLt_bf16_f32)
        (truncf .bf16 x3 bitsLt_bf16_f32) (constant S10000x64 .f32 0x00000000#32) (ix2 p q) : EReal)
      + matmul (F := Ideal) dot_S10000x64_S64x64_S10000x64_1_0_0_1_n_n none x2 (truncf .bf16 x5 bitsLt_bf16_f32)
          (constant S10000x64 .f32 0x00000000#32) (ix2 p q))
      + broadcastTo S10000x64 x4 broadcasts_S1x64_S10000x64 (ix2 p q)) (Ideal.ofBits .f32 0x00000000#32) = _
  refine congrArg₂ max (congrArg₂ (· + ·) (congrArg₂ (· + ·) ?_ ?_) ?_) rfl
  · refine (dotA_apply _ _ p q).trans (Finset.sum_congr rfl fun k _ => ?_)
    show (x0 (ix2 p k) * broadcastTo S10000x64 x1 broadcasts_S10000x1_S10000x64 (ix2 p k)) * x3 (ix2 k q) = _
    rw [Cert.Lib.Columns.broadcastTo_a1_ab_apply]
  · exact dotA_apply _ _ p q
  · exact broadcastTo_1b_ab_apply x4 _ p q

end Cert.KernelIdeal.Body

end
-- ==== Proof.Region0.lean ====
/-
  Region 0 as one function of the arrays it is entered with.

  The region's grid has ten points; point `t` works on rows `10000 t … 10000 t + 9999` of the node arrays (the summed
  neighbour rows, the column of reciprocal degrees, the nodes' own rows) and on the whole weight matrices and bias row,
  and writes rows `10000 t … 10000 t + 9999` of the result. Since a hidden row depends only on its own node's rows, the
  block point `t` writes back is block `t` of the hidden layer `Cert.Sage.hidK` of the whole arrays; the ten blocks
  cover the result array, so the array ends holding that layer.
-/
import proofs.«181150_j87256555585790_2_alg».proof.Proof.Gen.KernelIdeal.Frame
import proofs.«181150_j87256555585790_2_alg».proof.Proof.Body
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden layer of the arrays the region is entered with. -/
def G0 (c : Dev nD) : Buf (Elt Ideal) ((c : Thread nD τ).loc main_v25) :=
  Cert.Sage.hidK (n := 100000) (V c main_v23) (fun p => V c main_v11 (ix2 p (0 : Fin 1))) (V c main_v12) (V c main_arg2)
    (V c main_arg4) (fun q => V c main_v24 (ix2 (0 : Fin 1) q)) (Ideal.ofBits .f32 0x00000000#32)

/-- The windows' block indices over the grid: the node arrays' blocks move down with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `x` of the block of summed neighbour rows at point `t` is the array's entry in row `10000 t + x 0`. -/
theorem blk_agg (c : Dev nD) (t : Fin cfg0.N) (x : S10000x64.Idx) (k : S100000x64.Idx)
    (hk0 : (k 0).val = t.val * 10000 + (x 0).val) (hk1 : (k 1).val = (x 1).val) :
    (iblk0 V c 0 t : S10000x64.Idx → EReal) x = (V c main_v23 : S100000x64.Idx → EReal) k := by
  obtain ⟨e0, e1, -⟩ := idx_facts t
  unfold iblk0
  rw [View.read_apply]
  show V c main_v23 _ = V c main_v23 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 64 + 1 * (x 1).val = (k 1).val; rw [e1, hk1]; omega

/-- The block of reciprocal degrees at point `t`. -/
theorem blk_inv (c : Dev nD) (t : Fin cfg0.N) (x : S10000x1.Idx) (k : S100000x1.Idx)
    (hk0 : (k 0).val = t.val * 10000 + (x 0).val) (hk1 : (k 1).val = (x 1).val) :
    (iblk0 V c 1 t : S10000x1.Idx → EReal) x = (V c main_v11 : S100000x1.Idx → EReal) k := by
  obtain ⟨-, -, e0, e1, -⟩ := idx_facts t
  unfold iblk0
  rw [View.read_apply]
  show V c main_v11 _ = V c main_v11 _
  congr 1
  funext a
  apply Fin.ext
  match a with
  | ⟨0, _⟩ => show win0_1.index t (0 : Fin 2) * 10000 + 1 * (x 0).val = (k 0).val; rw [e0, hk0]; omega
  | ⟨1, _⟩ => show win0_1.index t (1 : Fin 2) * 1 + 1 * (x 1).val = (k 1).val; rw [e1, hk1]; omega

/-- The block of the nodes' own rows at point `t`. -/
theorem blk_self (c : Dev nD) (t : Fin cfg0.N) (x : S10000x64.Idx) (k : S100000x64.Idx)
    (hk0 : (k 0).val = t.val * 10000 + (x 0).val) (hk1 : (k 1).val = (x 1).val) :
    (iblk0 V c 2 t : S10000x64.Idx → EReal) x = (V c main_v12 : S100000x64.Idx → EReal) k := by
  obtain ⟨-, -, -, -, e0, e1, -⟩ := idx_facts t
  unfold iblk0
  rw [View.read_apply]
  show V c main_v12 _ = V c main_v12 _
  congr 1
  funext a
  apply Fin.ext
  match a with
  | ⟨0, _⟩ => show win0_2.index t (0 : Fin 2) * 10000 + 1 * (x 0).val = (k 0).val; rw [e0, hk0]; omega
  | ⟨1, _⟩ => show win0_2.index t (1 : Fin 2) * 64 + 1 * (x 1).val = (k 1).val; rw [e1, hk1]; omega

/-- The first weight matrix's window is the whole matrix at every point. -/
theorem blk_wl (c : Dev nD) (t : Fin cfg0.N) : (iblk0 V c 3 t : S64x64.Idx → EReal) = (V c main_arg2 : S64x64.Idx → EReal) := by
  obtain ⟨-, -, -, -, -, -, e0, e1, -⟩ := idx_facts t
  funext x
  unfold iblk0
  rw [View.read_apply]
  show V c main_arg2 _ = V c main_arg2 _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

/-- The bias row's window is the whole row at every point. -/
theorem blk_bias (c : Dev nD) (t : Fin cfg0.N) : (iblk0 V c 4 t : S1x64.Idx → EReal) = (V c main_v24 : S1x64.Idx → EReal) := by
  obtain ⟨-, -, -, -, -, -, -, -, e0, e1, -⟩ := idx_facts t
  funext x
  unfold iblk0
  rw [View.read_apply]
  show V c main_v24 _ = V c main_v24 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- The second weight matrix's window is the whole matrix at every point. -/
theorem blk_wr (c : Dev nD) (t : Fin cfg0.N) : (iblk0 V c 5 t : S64x64.Idx → EReal) = (V c main_arg4 : S64x64.Idx → EReal) := by
  obtain ⟨-, -, -, -, -, -, -, -, -, -, e0, e1, -⟩ := idx_facts t
  funext x
  unfold iblk0
  rw [View.read_apply]
  show V c main_arg4 _ = V c main_arg4 _
  congr 1
  funext a
  apply Fin.ext
  match a with
  | ⟨0, _⟩ => show win0_5.index t (0 : Fin 2) * 64 + 1 * (x 0).val = (x 0).val; rw [e0]; omega
  | ⟨1, _⟩ => show win0_5.index t (1 : Fin 2) * 64 + 1 * (x 1).val = (x 1).val; rw [e1]; omega

/-- What point `t` writes back is block `t` of the hidden layer of the entry arrays. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz, View.ld_unit_zero (S := S64x64) hz,
    View.ld_unit_zero (S := S1x64) hz]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (iblk0 V c 3 t) (iblk0 V c 5 t) (iblk0 V c 4 t) (ix2 p q)
    = G0 V c (((cfg0.win 6).blk t).view.emb (ix2 p q))
  refine (Cert.KernelIdeal.Body.hidden0_apply _ _ _ _ _ _ p q).trans ?_
  have hN : cfg0.N = 10 := N_0
  have ht : t.val < 10 := hN ▸ t.isLt
  obtain ⟨-, -, -, -, -, -, -, -, -, -, -, -, e0, e1⟩ := idx_facts t
  have hemb : ((cfg0.win 6).blk t).view.emb (ix2 p q)
      = ix2 (⟨t.val * 10000 + p.val, by have := p.isLt; omega⟩ : Fin 100000) q := by
    funext a
    apply Fin.ext
    match a with
    | ⟨0, _⟩ => show win0_6.index t (0 : Fin 2) * 10000 + 1 * p.val = t.val * 10000 + p.val; rw [e0]; omega
    | ⟨1, _⟩ => show win0_6.index t (1 : Fin 2) * 64 + 1 * q.val = q.val; rw [e1]; omega
  rw [hemb]
  unfold G0 Cert.Sage.hidK
  exact Cert.Sage.rowK_congr _ q (fun k => blk_agg V c t _ _ rfl rfl) (blk_inv V c t _ _ rfl rfl)
    (fun k => blk_self V c t _ _ rfl rfl) (blk_wl V c t) (blk_wr V c t) (fun q' => congrFun (blk_bias V c t) _)

/-- An index of the result array is in point `t`'s block iff each coordinate is in the block's range on its axis. -/
theorem mem_blk (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v25).slice (win0_6.rect t)).set ↔ _
  rw [View.set_slice_whole, Rect.mem_set_unit]
  exact Iff.rfl

/-- Row `r` of the result is written back by point `r / 10000`. -/
theorem cover (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : cfg0.N = 10 := N_0
  have ht : (i 0).val / 10000 < cfg0.N := by rw [hN]; omega
  obtain ⟨-, -, -, -, -, -, -, -, -, -, -, -, e0, e1⟩ := idx_facts ⟨(i 0).val / 10000, ht⟩
  refine ⟨⟨(i 0).val / 10000, ht⟩, flush0_6 _, (mem_blk _ i).mpr fun a => ?_⟩
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_6.index ⟨(i 0).val / 10000, ht⟩ (1 : Fin 2) * 64 ≤ (i 1).val
      ∧ (i 1).val < win0_6.index ⟨(i 0).val / 10000, ht⟩ (1 : Fin 2) * 64 + 64
    rw [e1]
    omega

/-- After the region the result array holds the hidden layer of the arrays the region was entered with. -/
theorem final0 (c : Dev nD) : (dat0 V c).arrAt 6 cfg0.N = G0 V c :=
  (dat0 V c).arrAt_eq_of_cover 6 (G0 V c) (fun t _ => flushed0_eq V c t) cover

end Cert.KernelIdeal.Region0

end
-- ==== Proof.Region1.lean ====
/-
  Region 1 as one function of the arrays it is entered with.

  The region's grid has ten points; point `t` works on rows `10000 t … 10000 t + 9999` of the node arrays (the summed
  neighbour rows of the first hidden layer, the column of reciprocal degrees, the first hidden layer's rows) and on the whole weight matrices and bias row,
  and writes rows `10000 t … 10000 t + 9999` of the result. Since a hidden row depends only on its own node's rows, the
  block point `t` writes back is block `t` of the hidden layer `Cert.Sage.hidK` of the whole arrays; the ten blocks
  cover the result array, so the array ends holding that layer.
-/
import proofs.«181150_j87256555585790_2_alg».proof.Proof.Gen.KernelIdeal.Frame
import proofs.«181150_j87256555585790_2_alg».proof.Proof.Body
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden layer of the arrays the region is entered with. -/
def G1 (c : Dev nD) : Buf (Elt Ideal) ((c : Thread nD τ).loc main_v38) :=
  Cert.Sage.hidK (n := 100000) (V c main_v36) (fun p => V c main_v11 (ix2 p (0 : Fin 1))) (V c main_v25) (V c main_arg5)
    (V c main_arg7) (fun q => V c main_v37 (ix2 (0 : Fin 1) q)) (Ideal.ofBits .f32 0x00000000#32)

/-- The windows' block indices over the grid: the node arrays' blocks move down with the point, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `x` of the block of summed neighbour rows at point `t` is the array's entry in row `10000 t + x 0`. -/
theorem blk_agg (c : Dev nD) (t : Fin cfg1.N) (x : S10000x64.Idx) (k : S100000x64.Idx)
    (hk0 : (k 0).val = t.val * 10000 + (x 0).val) (hk1 : (k 1).val = (x 1).val) :
    (iblk1 V c 0 t : S10000x64.Idx → EReal) x = (V c main_v36 : S100000x64.Idx → EReal) k := by
  obtain ⟨e0, e1, -⟩ := idx_facts t
  unfold iblk1
  rw [View.read_apply]
  show V c main_v36 _ = V c main_v36 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- The block of reciprocal degrees at point `t`. -/
theorem blk_inv (c : Dev nD) (t : Fin cfg1.N) (x : S10000x1.Idx) (k : S100000x1.Idx)
    (hk0 : (k 0).val = t.val * 10000 + (x 0).val) (hk1 : (k 1).val = (x 1).val) :
    (iblk1 V c 1 t : S10000x1.Idx → EReal) x = (V c main_v11 : S100000x1.Idx → EReal) k := by
  obtain ⟨-, -, e0, e1, -⟩ := idx_facts t
  unfold iblk1
  rw [View.read_apply]
  show V c main_v11 _ = V c main_v11 _
  congr 1
  funext a
  apply Fin.ext
  match a with
  | ⟨0, _⟩ => show win1_1.index t (0 : Fin 2) * 10000 + 1 * (x 0).val = (k 0).val; rw [e0, hk0]; omega
  | ⟨1, _⟩ => show win1_1.index t (1 : Fin 2) * 1 + 1 * (x 1).val = (k 1).val; rw [e1, hk1]; omega

/-- The block of the nodes' own rows at point `t`. -/
theorem blk_self (c : Dev nD) (t : Fin cfg1.N) (x : S10000x64.Idx) (k : S100000x64.Idx)
    (hk0 : (k 0).val = t.val * 10000 + (x 0).val) (hk1 : (k 1).val = (x 1).val) :
    (iblk1 V c 2 t : S10000x64.Idx → EReal) x = (V c main_v25 : S100000x64.Idx → EReal) k := by
  obtain ⟨-, -, -, -, e0, e1, -⟩ := idx_facts t
  unfold iblk1
  rw [View.read_apply]
  show V c main_v25 _ = V c main_v25 _
  congr 1
  funext a
  apply Fin.ext
  match a with
  | ⟨0, _⟩ => show win1_2.index t (0 : Fin 2) * 10000 + 1 * (x 0).val = (k 0).val; rw [e0, hk0]; omega
  | ⟨1, _⟩ => show win1_2.index t (1 : Fin 2) * 64 + 1 * (x 1).val = (k 1).val; rw [e1, hk1]; omega

/-- The first weight matrix's window is the whole matrix at every point. -/
theorem blk_wl (c : Dev nD) (t : Fin cfg1.N) : (iblk1 V c 3 t : S64x64.Idx → EReal) = (V c main_arg5 : S64x64.Idx → EReal) := by
  obtain ⟨-, -, -, -, -, -, e0, e1, -⟩ := idx_facts t
  funext x
  unfold iblk1
  rw [View.read_apply]
  show V c main_arg5 _ = V c main_arg5 _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- The bias row's window is the whole row at every point. -/
theorem blk_bias (c : Dev nD) (t : Fin cfg1.N) : (iblk1 V c 4 t : S1x64.Idx → EReal) = (V c main_v37 : S1x64.Idx → EReal) := by
  obtain ⟨-, -, -, -, -, -, -, -, e0, e1, -⟩ := idx_facts t
  funext x
  unfold iblk1
  rw [View.read_apply]
  show V c main_v37 _ = V c main_v37 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The second weight matrix's window is the whole matrix at every point. -/
theorem blk_wr (c : Dev nD) (t : Fin cfg1.N) : (iblk1 V c 5 t : S64x64.Idx → EReal) = (V c main_arg7 : S64x64.Idx → EReal) := by
  obtain ⟨-, -, -, -, -, -, -, -, -, -, e0, e1, -⟩ := idx_facts t
  funext x
  unfold iblk1
  rw [View.read_apply]
  show V c main_arg7 _ = V c main_arg7 _
  congr 1
  funext a
  apply Fin.ext
  match a with
  | ⟨0, _⟩ => show win1_5.index t (0 : Fin 2) * 64 + 1 * (x 0).val = (x 0).val; rw [e0]; omega
  | ⟨1, _⟩ => show win1_5.index t (1 : Fin 2) * 64 + 1 * (x 1).val = (x 1).val; rw [e1]; omega

/-- What point `t` writes back is block `t` of the hidden layer of the entry arrays. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S10000x1) hz, View.ld_unit_zero (S := S64x64) hz,
    View.ld_unit_zero (S := S1x64) hz]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (iblk1 V c 5 t) (iblk1 V c 4 t) (ix2 p q)
    = G1 V c (((cfg1.win 6).blk t).view.emb (ix2 p q))
  refine (Cert.KernelIdeal.Body.hidden1_apply _ _ _ _ _ _ p q).trans ?_
  have hN : cfg1.N = 10 := N_1
  have ht : t.val < 10 := hN ▸ t.isLt
  obtain ⟨-, -, -, -, -, -, -, -, -, -, -, -, e0, e1⟩ := idx_facts t
  have hemb : ((cfg1.win 6).blk t).view.emb (ix2 p q)
      = ix2 (⟨t.val * 10000 + p.val, by have := p.isLt; omega⟩ : Fin 100000) q := by
    funext a
    apply Fin.ext
    match a with
    | ⟨0, _⟩ => show win1_6.index t (0 : Fin 2) * 10000 + 1 * p.val = t.val * 10000 + p.val; rw [e0]; omega
    | ⟨1, _⟩ => show win1_6.index t (1 : Fin 2) * 64 + 1 * q.val = q.val; rw [e1]; omega
  rw [hemb]
  unfold G1 Cert.Sage.hidK
  exact Cert.Sage.rowK_congr _ q (fun k => blk_agg V c t _ _ rfl rfl) (blk_inv V c t _ _ rfl rfl)
    (fun k => blk_self V c t _ _ rfl rfl) (blk_wl V c t) (blk_wr V c t) (fun q' => congrFun (blk_bias V c t) _)

/-- An index of the result array is in point `t`'s block iff each coordinate is in the block's range on its axis. -/
theorem mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v38).slice (win1_6.rect t)).set ↔ _
  rw [View.set_slice_whole, Rect.mem_set_unit]
  exact Iff.rfl

/-- Row `r` of the result is written back by point `r / 10000`. -/
theorem cover (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  have hN : cfg1.N = 10 := N_1
  have ht : (i 0).val / 10000 < cfg1.N := by rw [hN]; omega
  obtain ⟨-, -, -, -, -, -, -, -, -, -, -, -, e0, e1⟩ := idx_facts ⟨(i 0).val / 10000, ht⟩
  refine ⟨⟨(i 0).val / 10000, ht⟩, flush1_6 _, (mem_blk _ i).mpr fun a => ?_⟩
  match a with
  | ⟨0, _⟩ =>
    show win1_6.index ⟨(i 0).val / 10000, ht⟩ (0 : Fin 2) * 10000 ≤ (i 0).val
      ∧ (i 0).val < win1_6.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_6.index ⟨(i 0).val / 10000, ht⟩ (1 : Fin 2) * 64 ≤ (i 1).val
      ∧ (i 1).val < win1_6.index ⟨(i 0).val / 10000, ht⟩ (1 : Fin 2) * 64 + 64
    rw [e1]
    omega

/-- After the region the result array holds the hidden layer of the arrays the region was entered with. -/
theorem final1 (c : Dev nD) : (dat1 V c).arrAt 6 cfg1.N = G1 V c :=
  (dat1 V c).arrAt_eq_of_cover 6 (G1 V c) (fun t _ => flushed1_eq V c t) cover

end Cert.KernelIdeal.Region1

end
-- ==== Proof.Body2.lean ====
/-
  The last hidden layer fused with the output layer, read one entry at a time.

  For a block of 5000 nodes the body holds the summed neighbour rows a, the column of reciprocal degrees, the two
  earlier hidden layers h0 and h1, two 64 × 64 weight matrices with a bias row, the three 64 × 32 row blocks of the
  output matrix and the output bias row. It first forms the third hidden layer

      h2 (p, k) = max (((∑ k', (a (p, k') · inv p) · Wl (k', k)) + ∑ k', h1 (p, k') · Wr (k', k)) + bl k) 0

  and then the output

      ((∑ k, h0 (p, k) · w0 (k, q)) + ∑ k, h1 (p, k) · w1 (k, q)) + ∑ k, h2 (p, k) · w2 (k, q)) + b q .

  On the extended reals a change of float format is the identity and a matrix product accumulated into the zero
  splat is the plain sum over the contracted axis, so each entry of the body's value is literally the row formula of
  the specification: no algebraic law is needed, only the reading of each operation at the index (p, q).

  The two dimension records of the body's products (5000 × 64 by 64 × 64, and 5000 × 64 by 64 × 32) contract the left
  operand's second axis with the right operand's first; their four coordinate facts come first.
-/
import proofs.«181150_j87256555585790_2_alg».proof.Proof.Gen.KernelIdeal.Skeleton
import proofs.«181150_j87256555585790_2_alg».proof.Proof.Spec
import proofs.«181150_j87256555585790_2_alg».proof.Proof.LibPlainDot
import proofs.«181150_j87256555585790_2_alg».proof.Proof.LibColumns
import Idealize.ShloMosaic.Lib.ValueLayout
import Idealize.ShloMosaic.PureOps.Ideal.Laws

noncomputable section

namespace Cert.KernelIdeal.Body2

open Cert.KernelIdeal Cert.KernelIdeal.Gen Idealize.ShloMosaic Idealize.ShloMosaic.ValueIdx

/-! ## The product of a 5000 × 64 block with a 64 × 64 matrix -/

/-- The left operand is read in the output's row … -/
theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … at the contraction position as its column; -/
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contraction position as its row … -/
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … in the output's column. -/
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 matrix, into the zero splat, at (p, c): the sum over the 64 shared positions. -/
theorem dot64_apply {φ₁ φ₂ : FTy} (l : FVec Ideal S5000x64 φ₁) (r : FVec Ideal S64x64 φ₂) (p : Fin 5000) (c : Fin 64) :
    FloatOps.matmul dot_S5000x64_S64x64_S5000x64_1_0_0_1_n_n none l r (constant (F := Ideal) S5000x64 .f32 0x00000000#32) (ix2 p c)
      = ∑ k : Fin 64, l (ix2 p k) * r (ix2 k c) :=
  Cert.Lib.PlainDot.matmul_zero_ix2 dot_S5000x64_S64x64_S5000x64_1_0_0_1_n_n rfl rfl lhs64_0 lhs64_1 rhs64_0 rhs64_1 none l r p c

/-! ## The product of a 5000 × 64 block with a 64 × 32 matrix -/

/-- The left operand is read in the output's row … -/
theorem lhs32_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … at the contraction position as its column; -/
theorem lhs32_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
/-- the right operand at the contraction position as its row … -/
theorem rhs32_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
/-- … in the output's column. -/
theorem rhs32_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A 5000 × 64 block times a 64 × 32 matrix, into the zero splat, at (p, c): the sum over the 64 shared positions. -/
theorem dot32_apply {φ₁ φ₂ : FTy} (l : FVec Ideal S5000x64 φ₁) (r : FVec Ideal S64x32 φ₂) (p : Fin 5000) (c : Fin 32) :
    FloatOps.matmul dot_S5000x64_S64x32_S5000x32_1_0_0_1_n_n none l r (constant (F := Ideal) S5000x32 .f32 0x00000000#32) (ix2 p c)
      = ∑ k : Fin 64, l (ix2 p k) * r (ix2 k c) :=
  Cert.Lib.PlainDot.matmul_zero_ix2 dot_S5000x64_S64x32_S5000x32_1_0_0_1_n_n rfl rfl lhs32_0 lhs32_1 rhs32_0 rhs32_1 none l r p c

/-! ## The body's value at an entry -/

/-- The third hidden layer as the body forms it, at node p of the block and feature k: the hidden-row formula of the
    block's rows, the reciprocal degree multiplied in, the bias added last, cut off below at zero. -/
theorem hidden_apply (x0 : Vec Ideal S5000x64 .f32) (x1 : Vec Ideal S5000x1 .f32) (x2 : Vec Ideal S5000x64 .bf16)
    (x4 x6 : Vec Ideal S64x64 .f32) (x5 : Vec Ideal S1x64 .f32) (p : Fin 5000) (k : Fin 64) :
    k2_pay3 x0 x1 x2 x4 x6 x5 (ix2 p k)
      = Cert.Sage.rowK (fun k' => x0 (ix2 p k')) (x1 (ix2 p (0 : Fin 1))) (fun k' => x2 (ix2 p k')) x4 x6
          (fun q' => x5 (ix2 (0 : Fin 1) q')) (Ideal.ofBits .f32 0x00000000#32) k := by
  unfold k2_pay3 k2_pay2 Cert.Sage.rowK
  simp only [shapeCast_self]
  show max ((FloatOps.matmul dot_S5000x64_S64x64_S5000x64_1_0_0_1_n_n none
                (truncf .bf16 (mulf x0 (broadcastTo S5000x64 x1 broadcasts_S5000x1_S5000x64)) bitsLt_bf16_f32)
                (truncf .bf16 x4 bitsLt_bf16_f32) (constant (F := Ideal) S5000x64 .f32 0x00000000#32) (ix2 p k)
            + FloatOps.matmul dot_S5000x64_S64x64_S5000x64_1_0_0_1_n_n none x2
                (truncf .bf16 x6 bitsLt_bf16_f32) (constant (F := Ideal) S5000x64 .f32 0x00000000#32) (ix2 p k))
            + broadcastTo S5000x64 x5 broadcasts_S1x64_S5000x64 (ix2 p k))
          (Ideal.ofBits .f32 0x00000000#32) = _
  rw [dot64_apply, dot64_apply, broadcastTo_1b_ab_apply]
  simp only [truncf_apply, mulf_apply, Cert.Lib.Columns.broadcastTo_a1_ab_apply]

/-- The body's stored value at node p of the block and output feature q: the output-row formula of the block's rows of
    the two earlier hidden layers and of the third hidden layer formed from them. -/
theorem pay_apply (x0 : Vec Ideal S5000x64 .f32) (x1 : Vec Ideal S5000x1 .f32) (x2 x3 : Vec Ideal S5000x64 .bf16)
    (x4 x6 : Vec Ideal S64x64 .f32) (x5 : Vec Ideal S1x64 .f32) (x7 x8 x9 : Vec Ideal S64x32 .f32) (x10 : Vec Ideal S1x32 .f32)
    (p : Fin 5000) (q : Fin 32) :
    k2_pay1 (k2_pay2 x2) (k2_pay3 x0 x1 x2 x4 x6 x5) (k2_pay4 x8) (k2_pay5 x9) (k2_pay6 x3 x7) x10 (ix2 p q)
      = Cert.Sage.rowOut (fun k => x3 (ix2 p k)) (fun k => x2 (ix2 p k))
          (fun k => Cert.Sage.rowK (fun k' => x0 (ix2 p k')) (x1 (ix2 p (0 : Fin 1))) (fun k' => x2 (ix2 p k')) x4 x6
            (fun q' => x5 (ix2 (0 : Fin 1) q')) (Ideal.ofBits .f32 0x00000000#32) k)
          x7 x8 x9 (fun q' => x10 (ix2 (0 : Fin 1) q')) q := by
  unfold k2_pay1 k2_pay2 k2_pay4 k2_pay5 k2_pay6 Cert.Sage.rowOut
  simp only [shapeCast_self]
  show ((FloatOps.matmul dot_S5000x64_S64x32_S5000x32_1_0_0_1_n_n none x3
              (truncf .bf16 x7 bitsLt_bf16_f32) (constant (F := Ideal) S5000x32 .f32 0x00000000#32) (ix2 p q)
          + FloatOps.matmul dot_S5000x64_S64x32_S5000x32_1_0_0_1_n_n none x2
              (truncf .bf16 x8 bitsLt_bf16_f32) (constant (F := Ideal) S5000x32 .f32 0x00000000#32) (ix2 p q))
          + FloatOps.matmul dot_S5000x64_S64x32_S5000x32_1_0_0_1_n_n none (k2_pay3 x0 x1 x2 x4 x6 x5)
              (truncf .bf16 x9 bitsLt_bf16_f32) (constant (F := Ideal) S5000x32 .f32 0x00000000#32) (ix2 p q))
        + broadcastTo S5000x32 x10 broadcasts_S1x32_S5000x32 (ix2 p q) = _
  rw [dot32_apply, dot32_apply, dot32_apply, broadcastTo_1b_ab_apply]
  simp only [truncf_apply, hidden_apply]

end Cert.KernelIdeal.Body2

end
-- ==== Proof.Region2.lean ====
/-
  The third call as one function of the arrays it finds.

  The grid has 20 points; point t brings in rows 5000 t … 5000 t + 4999 of the four node arrays (summed neighbour rows,
  reciprocal degrees, the two earlier hidden layers), the weight and bias arrays whole, and writes back rows
  5000 t … 5000 t + 4999 of the result. Entry (p, q) of the block the body leaves is the output-row formula of the block's
  rows p, and row p of a block at point t is row 5000 t + p of its array; so every point writes back its block of ONE
  function of the arrays: the output layer over 100000 nodes, of the two earlier hidden layers and the third one formed
  from them. Row r lies in point r / 5000's block, so the 20 blocks cover the result and the array ends holding that
  function.
-/
import proofs.«181150_j87256555585790_2_alg».proof.Proof.Gen.KernelIdeal.Frame
import proofs.«181150_j87256555585790_2_alg».proof.Proof.Body2
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- What the result array ends holding: the output layer over all nodes, of the two earlier hidden layers and of the
    third, itself the hidden layer of the summed neighbour rows, the reciprocal degrees and the second hidden layer. -/
def G2 (c : Dev nD) : Cert.Sage.M 100000 32 :=
  Cert.Sage.outK (V c main_v25) (V c main_v38)
    (Cert.Sage.hidK (V c main_v49) (fun p => V c main_v11 (ix2 p (0 : Fin 1))) (V c main_v38) (V c main_arg8) (V c main_arg10)
      (fun q => V c main_v50 (ix2 (0 : Fin 1) q)) (Ideal.ofBits .f32 0x00000000#32))
    (V c main_v52) (V c main_v53) (V c main_v54) (fun q => V c main_v51 (ix2 (0 : Fin 1) q))

theorem hz : (![0, 0] : Fin 2 → Nat) = fun _ => 0 := funext fun a => by fin_cases a <;> rfl

/-- The grid has 20 points. -/
theorem lt20 (t : Fin cfg2.N) : t.val < 20 := lt_of_lt_of_eq t.isLt N_2

/-- Row p of a block at point t, as a row of the array. -/
def row (t : Fin cfg2.N) (p : Fin 5000) : Fin 100000 := ⟨5000 * t.val + p.val, by have := lt20 t; have := p.isLt; omega⟩

/-- The index maps over the grid: the node arrays' and the result's blocks move down with the point, one block per point,
    in the one block column; the weight and bias arrays' block is the array. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

/-! ## The input blocks as rows of their arrays -/

/-- Row p of the block of summed neighbour rows at point t is row 5000 t + p of the array. -/
theorem blk0_apply (c : Dev nD) (t : Fin cfg2.N) (p : Fin 5000) (k : Fin 64) :
    (iblk2 V c 0 t : Vec Ideal S5000x64 .f32) (ix2 p k) = (V c main_v49 : Cert.Sage.M 100000 64) (ix2 (row t p) k) := by
  obtain ⟨⟨e0, e1⟩, -⟩ := idx_facts t
  show (V c main_v49 : Cert.Sage.M 100000 64) (((cfg2.win 0).blk t).view.emb (ix2 p k)) = _
  refine congrArg (V c main_v49 : Cert.Sage.M 100000 64) (funext fun a => Fin.ext ?_)
  match a with
  | ⟨0, _⟩ => show win2_0.index t (0 : Fin 2) * 5000 + 1 * p.val = 5000 * t.val + p.val; omega
  | ⟨1, _⟩ => show win2_0.index t (1 : Fin 2) * 64 + 1 * k.val = k.val; omega

/-- Entry p of the block of reciprocal degrees at point t is entry 5000 t + p of the column. -/
theorem blk1_apply (c : Dev nD) (t : Fin cfg2.N) (p : Fin 5000) :
    (iblk2 V c 1 t : Vec Ideal S5000x1 .f32) (ix2 p (0 : Fin 1)) = (V c main_v11 : Cert.Sage.M 100000 1) (ix2 (row t p) (0 : Fin 1)) := by
  obtain ⟨-, ⟨e0, e1⟩, -⟩ := idx_facts t
  show (V c main_v11 : Cert.Sage.M 100000 1) (((cfg2.win 1).blk t).view.emb (ix2 p (0 : Fin 1))) = _
  refine congrArg (V c main_v11 : Cert.Sage.M 100000 1) (funext fun a => Fin.ext ?_)
  match a with
  | ⟨0, _⟩ => show win2_1.index t (0 : Fin 2) * 5000 + 1 * p.val = 5000 * t.val + p.val; omega
  | ⟨1, _⟩ => show win2_1.index t (1 : Fin 2) * 1 + 1 * 0 = 0; omega

/-- Row p of the block of the second hidden layer at point t is row 5000 t + p of the array. -/
theorem blk2_apply (c : Dev nD) (t : Fin cfg2.N) (p : Fin 5000) (k : Fin 64) :
    (iblk2 V c 2 t : Vec Ideal S5000x64 .bf16) (ix2 p k) = (V c main_v38 : Cert.Sage.M 100000 64) (ix2 (row t p) k) := by
  obtain ⟨-, -, ⟨e0, e1⟩, -⟩ := idx_facts t
  show (V c main_v38 : Cert.Sage.M 100000 64) (((cfg2.win 2).blk t).view.emb (ix2 p k)) = _
  refine congrArg (V c main_v38 : Cert.Sage.M 100000 64) (funext fun a => Fin.ext ?_)
  match a with
  | ⟨0, _⟩ => show win2_2.index t (0 : Fin 2) * 5000 + 1 * p.val = 5000 * t.val + p.val; omega
  | ⟨1, _⟩ => show win2_2.index t (1 : Fin 2) * 64 + 1 * k.val = k.val; omega

/-- Row p of the block of the first hidden layer at point t is row 5000 t + p of the array. -/
theorem blk3_apply (c : Dev nD) (t : Fin cfg2.N) (p : Fin 5000) (k : Fin 64) :
    (iblk2 V c 3 t : Vec Ideal S5000x64 .bf16) (ix2 p k) = (V c main_v25 : Cert.Sage.M 100000 64) (ix2 (row t p) k) := by
  obtain ⟨-, -, -, ⟨e0, e1⟩, -⟩ := idx_facts t
  show (V c main_v25 : Cert.Sage.M 100000 64) (((cfg2.win 3).blk t).view.emb (ix2 p k)) = _
  refine congrArg (V c main_v25 : Cert.Sage.M 100000 64) (funext fun a => Fin.ext ?_)
  match a with
  | ⟨0, _⟩ => show win2_3.index t (0 : Fin 2) * 5000 + 1 * p.val = 5000 * t.val + p.val; omega
  | ⟨1, _⟩ => show win2_3.index t (1 : Fin 2) * 64 + 1 * k.val = k.val; omega

/-- The weight and bias arrays come in whole: their block at every point is the array. -/
theorem blk4_eq (c : Dev nD) (t : Fin cfg2.N) : (iblk2 V c 4 t : Vec Ideal S64x64 .f32) = (V c main_arg8 : Cert.Sage.M 64 64) := by
  obtain ⟨-, -, -, -, ⟨e0, e1⟩, -⟩ := idx_facts t
  funext y
  show (V c main_arg8 : Cert.Sage.M 64 64) (((cfg2.win 4).blk t).view.emb y) = _
  refine congrArg (V c main_arg8 : Cert.Sage.M 64 64) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

theorem blk5_eq (c : Dev nD) (t : Fin cfg2.N) : (iblk2 V c 5 t : Vec Ideal S1x64 .f32) = (V c main_v50 : Cert.Sage.M 1 64) := by
  obtain ⟨-, -, -, -, -, ⟨e0, e1⟩, -⟩ := idx_facts t
  funext y
  show (V c main_v50 : Cert.Sage.M 1 64) (((cfg2.win 5).blk t).view.emb y) = _
  refine congrArg (V c main_v50 : Cert.Sage.M 1 64) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

theorem blk6_eq (c : Dev nD) (t : Fin cfg2.N) : (iblk2 V c 6 t : Vec Ideal S64x64 .f32) = (V c main_arg10 : Cert.Sage.M 64 64) := by
  obtain ⟨-, -, -, -, -, -, ⟨e0, e1⟩, -⟩ := idx_facts t
  funext y
  show (V c main_arg10 : Cert.Sage.M 64 64) (((cfg2.win 6).blk t).view.emb y) = _
  refine congrArg (V c main_arg10 : Cert.Sage.M 64 64) (funext fun a => Fin.ext ?_)
  match a with
  | ⟨0, _⟩ => show win2_6.index t (0 : Fin 2) * 64 + 1 * (y 0).val = (y 0).val; omega
  | ⟨1, _⟩ => show win2_6.index t (1 : Fin 2) * 64 + 1 * (y 1).val = (y 1).val; omega

theorem blk7_eq (c : Dev nD) (t : Fin cfg2.N) : (iblk2 V c 7 t : Vec Ideal S64x32 .f32) = (V c main_v52 : Cert.Sage.M 64 32) := by
  obtain ⟨-, -, -, -, -, -, -, ⟨e0, e1⟩, -⟩ := idx_facts t
  funext y
  show (V c main_v52 : Cert.Sage.M 64 32) (((cfg2.win 7).blk t).view.emb y) = _
  refine congrArg (V c main_v52 : Cert.Sage.M 64 32) (funext fun a => Fin.ext ?_)
  match a with
  | ⟨0, _⟩ => show win2_7.index t (0 : Fin 2) * 64 + 1 * (y 0).val = (y 0).val; omega
  | ⟨1, _⟩ => show win2_7.index t (1 : Fin 2) * 32 + 1 * (y 1).val = (y 1).val; omega

theorem blk8_eq (c : Dev nD) (t : Fin cfg2.N) : (iblk2 V c 8 t : Vec Ideal S64x32 .f32) = (V c main_v53 : Cert.Sage.M 64 32) := by
  obtain ⟨-, -, -, -, -, -, -, -, ⟨e0, e1⟩, -⟩ := idx_facts t
  funext y
  show (V c main_v53 : Cert.Sage.M 64 32) (((cfg2.win 8).blk t).view.emb y) = _
  refine congrArg (V c main_v53 : Cert.Sage.M 64 32) (funext fun a => Fin.ext ?_)
  match a with
  | ⟨0, _⟩ => show win2_8.index t (0 : Fin 2) * 64 + 1 * (y 0).val = (y 0).val; omega
  | ⟨1, _⟩ => show win2_8.index t (1 : Fin 2) * 32 + 1 * (y 1).val = (y 1).val; omega

theorem blk9_eq (c : Dev nD) (t : Fin cfg2.N) : (iblk2 V c 9 t : Vec Ideal S64x32 .f32) = (V c main_v54 : Cert.Sage.M 64 32) := by
  obtain ⟨-, -, -, -, -, -, -, -, -, ⟨e0, e1⟩, -⟩ := idx_facts t
  funext y
  show (V c main_v54 : Cert.Sage.M 64 32) (((cfg2.win 9).blk t).view.emb y) = _
  refine congrArg (V c main_v54 : Cert.Sage.M 64 32) (funext fun a => Fin.ext ?_)
  match a with
  | ⟨0, _⟩ => show win2_9.index t (0 : Fin 2) * 64 + 1 * (y 0).val = (y 0).val; omega
  | ⟨1, _⟩ => show win2_9.index t (1 : Fin 2) * 32 + 1 * (y 1).val = (y 1).val; omega

theorem blk10_eq (c : Dev nD) (t : Fin cfg2.N) : (iblk2 V c 10 t : Vec Ideal S1x32 .f32) = (V c main_v51 : Cert.Sage.M 1 32) := by
  obtain ⟨-, -, -, -, -, -, -, -, -, -, ⟨e0, e1⟩, -⟩ := idx_facts t
  funext y
  show (V c main_v51 : Cert.Sage.M 1 32) (((cfg2.win 10).blk t).view.emb y) = _
  refine congrArg (V c main_v51 : Cert.Sage.M 1 32) (funext fun a => Fin.ext ?_)
  match a with
  | ⟨0, _⟩ => show win2_10.index t (0 : Fin 2) * 1 + 1 * (y 0).val = (y 0).val; omega
  | ⟨1, _⟩ => show win2_10.index t (1 : Fin 2) * 32 + 1 * (y 1).val = (y 1).val; omega

/-- Entry (p, q) of the result's block at point t is entry (5000 t + p, q) of the result. -/
theorem blk11_emb (t : Fin cfg2.N) (p : Fin 5000) (q : Fin 32) :
    (((cfg2.win 11).blk t).view.emb (ix2 p q) : S100000x32.Idx) = ix2 (row t p) q := by
  obtain ⟨-, -, -, -, -, -, -, -, -, -, -, e0, e1⟩ := idx_facts t
  refine funext fun a => Fin.ext ?_
  match a with
  | ⟨0, _⟩ => show win2_11.index t (0 : Fin 2) * 5000 + 1 * p.val = 5000 * t.val + p.val; omega
  | ⟨1, _⟩ => show win2_11.index t (1 : Fin 2) * 32 + 1 * q.val = q.val; omega

/-! ## What a point writes back -/

/-- WHAT POINT t WRITES BACK is block t of the one function of the arrays: entry (p, q) of the body's value is the
    output-row formula of the blocks' rows p, which are the arrays' rows 5000 t + p. -/
theorem flushed2_eq (c : Dev nD) (t : Fin cfg2.N) :
    (dat2 V c).flushed 11 t = ((cfg2.win 11).blk t).view.read (Elt Ideal) (G2 V c) := by
  show (cfg2.win 11).cut (grid2.coords t) ((dat2 V c).after 11 t) = _
  rw [after2_11]
  unfold out2_11
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x32) hz, View.ld_unit_zero (S := S1x32) hz]
  funext j
  obtain ⟨p, q, rfl⟩ : ∃ (p : Fin 5000) (q : Fin 32), (j : S5000x32.Idx) = ix2 p q := ⟨j 0, j 1, eq_ix2 j⟩
  refine (Body2.pay_apply (iblk2 V c 0 t) (iblk2 V c 1 t) (iblk2 V c 2 t) (iblk2 V c 3 t) (iblk2 V c 4 t) (iblk2 V c 6 t)
    (iblk2 V c 5 t) (iblk2 V c 7 t) (iblk2 V c 8 t) (iblk2 V c 9 t) (iblk2 V c 10 t) p q).trans ?_
  refine Eq.trans ?_ (congrArg (G2 V c) (blk11_emb t p q)).symm
  show _ = Cert.Sage.rowOut (fun k => (V c main_v25 : Cert.Sage.M 100000 64) (ix2 (row t p) k))
      (fun k => (V c main_v38 : Cert.Sage.M 100000 64) (ix2 (row t p) k))
      (fun k => Cert.Sage.rowK (fun k' => (V c main_v49 : Cert.Sage.M 100000 64) (ix2 (row t p) k'))
        ((V c main_v11 : Cert.Sage.M 100000 1) (ix2 (row t p) (0 : Fin 1)))
        (fun k' => (V c main_v38 : Cert.Sage.M 100000 64) (ix2 (row t p) k'))
        (V c main_arg8) (V c main_arg10) (fun q' => (V c main_v50 : Cert.Sage.M 1 64) (ix2 (0 : Fin 1) q'))
        (Ideal.ofBits .f32 0x00000000#32) k)
      (V c main_v52) (V c main_v53) (V c main_v54) (fun q' => (V c main_v51 : Cert.Sage.M 1 32) (ix2 (0 : Fin 1) q')) q
  exact Cert.Sage.rowOut_congr q (fun k => blk3_apply V c t p k) (fun k => blk2_apply V c t p k)
    (fun k => Cert.Sage.rowK_congr _ k (fun k' => blk0_apply V c t p k') (blk1_apply V c t p) (fun k' => blk2_apply V c t p k')
      (blk4_eq V c t) (blk6_eq V c t) (fun q' => congrFun (blk5_eq V c t) (ix2 (0 : Fin 1) q')))
    (blk7_eq V c t) (blk8_eq V c t) (blk9_eq V c t) (fun q' => congrFun (blk10_eq V c t) (ix2 (0 : Fin 1) q'))

/-! ## The blocks cover the result -/

/-- An index of the result is in point t's block iff each coordinate is in the block's range on its axis. -/
theorem mem_blk (t : Fin cfg2.N) (i : S100000x32.Idx) :
    i ∈ ((cfg2.win 11).blk t).view.set ↔ ∀ a : Fin 2, win2_11.index t a * S5000x32.size a ≤ (i a).val ∧ (i a).val < win2_11.index t a * S5000x32.size a + S5000x32.size a := by
  show i ∈ ((View.whole main_v55).slice (win2_11.rect t)).set ↔ _
  rw [View.set_slice_whole, Rect.mem_set_unit]
  exact Iff.rfl

/-- Row r of the result is in the block of point r / 5000, which is written back. -/
theorem cover (i : S100000x32.Idx) : ∃ t : Fin cfg2.N, (cfg2.win 11).flush t = true ∧ i ∈ ((cfg2.win 11).blk t).view.set := by
  have hi0 : (i 0).val < 100000 := (i 0).isLt
  have hi1 : (i 1).val < 32 := (i 1).isLt
  let t : Fin cfg2.N := ⟨(i 0).val / 5000, lt_of_lt_of_eq (show (i 0).val / 5000 < 20 by omega) N_2.symm⟩
  have ht : t.val = (i 0).val / 5000 := rfl
  obtain ⟨-, -, -, -, -, -, -, -, -, -, -, e0, e1⟩ := idx_facts t
  refine ⟨t, flush2_11 t, ?_⟩
  rw [mem_blk]
  intro a
  match a with
  | ⟨0, _⟩ => show win2_11.index t (0 : Fin 2) * 5000 ≤ (i 0).val ∧ (i 0).val < win2_11.index t (0 : Fin 2) * 5000 + 5000; omega
  | ⟨1, _⟩ => show win2_11.index t (1 : Fin 2) * 32 ≤ (i 1).val ∧ (i 1).val < win2_11.index t (1 : Fin 2) * 32 + 32; omega

/-- THE RESULT after the call: the output layer over all nodes, of the arrays the call found. -/
theorem final2 (c : Dev nD) : (dat2 V c).arrAt 11 cfg2.N = G2 V c :=
  (dat2 V c).arrAt_eq_of_cover 11 (G2 V c) (fun t _ => flushed2_eq V c t) cover

end Cert.KernelIdeal.Region2

end
-- ==== Proof.Fold.lean ====
/-
  The kernel program's result as one term of its argument arrays.

  The buffers' contents at the boundaries between host stretches and regions are followed from the launch memory to the
  return: a stretch writes its results as functions of what it reads and keeps every other buffer; a region replaces its
  result array by the hidden (or output) layer of the arrays it is entered with and keeps every other buffer, its own
  input arrays included. The edges' endpoints, the reciprocal degrees and the earlier hidden layers are carried along to
  where they are read again. At the return the result buffer holds `KOut`: the output layer of the three hidden layers,
  each the hidden layer of the neighbour sum of the one before.
-/
import proofs.«181150_j87256555585790_2_alg».proof.Proof.FoldHost
import proofs.«181150_j87256555585790_2_alg».proof.Proof.Region0
import proofs.«181150_j87256555585790_2_alg».proof.Proof.Region1
import proofs.«181150_j87256555585790_2_alg».proof.Proof.Region2

set_option maxRecDepth 16384

noncomputable section

namespace Cert.Sage

/-- A hidden layer depends only on its operands. -/
theorem hidK_congr {n : ℕ} {a a' : M n 64} {inv inv' : Fin n → EReal} {h h' : M n 64} {Wl Wl' Wr Wr' : M 64 64}
    {bl bl' : Fin 64 → EReal} (z : EReal) (ha : a = a') (hi : inv = inv') (hh : h = h') (hWl : Wl = Wl') (hWr : Wr = Wr')
    (hb : bl = bl') : hidK a inv h Wl Wr bl z = hidK a' inv' h' Wl' Wr' bl' z := by
  subst ha hi hh hWl hWr hb
  rfl

/-- The output layer depends only on its operands. -/
theorem outK_congr {n : ℕ} {h0 h0' h1 h1' h2 h2' : M n 64} {w0 w0' w1 w1' w2 w2' : M 64 32} {b b' : Fin 32 → EReal}
    (e0 : h0 = h0') (e1 : h1 = h1') (e2 : h2 = h2') (f0 : w0 = w0') (f1 : w1 = w1') (f2 : w2 = w2') (hb : b = b') :
    outK h0 h1 h2 w0 w1 w2 b = outK h0' h1' h2' w0' w1' w2' b' := by
  subst e0 e1 e2 f0 f1 f2 hb
  rfl

end Cert.Sage

namespace Cert.KernelIdeal.Fold

open Cert.KernelIdeal Cert.KernelIdeal.Gen Cert.KernelIdeal.Glue
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-! ## The terms -/

/-- The node features as the regions read them. -/
def feat : (⟨S100000x64, .bf16⟩ : BufTy).Contents (Elt Ideal) :=
  truncf (F := Ideal) (s := S100000x64) (φ := .f32) .bf16 (m ((c : Thread nD τ).loc main_arg0)) bitsLt_bf16_f32

/-- Every node's degree. -/
def degE : FVec Ideal S100000 .f32 :=
  deg (constant (F := Ideal) S_ .f32 0x3F800000#32) (cnt (dst (m ((c : Thread nD τ).loc main_arg1))))

/-- Every node's reciprocal degree, as a column. -/
def invE : (⟨S100000x1, .f32⟩ : BufTy).Contents (Elt Ideal) := inv (degE m c)

/-- The neighbour sum of a feature array along the program's edges. -/
def nbr (h : (⟨S100000x64, .bf16⟩ : BufTy).Contents (Elt Ideal)) : (⟨S100000x64, .f32⟩ : BufTy).Contents (Elt Ideal) :=
  agg (src (m ((c : Thread nD τ).loc main_arg1))) (dst (m ((c : Thread nD τ).loc main_arg1))) h

/-- The first hidden layer. -/
def H0 : (⟨S100000x64, .bf16⟩ : BufTy).Contents (Elt Ideal) :=
  Cert.Sage.hidK (n := 100000) (nbr m c (feat m c)) (fun p => invE m c (ix2 p (0 : Fin 1))) (feat m c) (m ((c : Thread nD τ).loc main_arg2)) (m ((c : Thread nD τ).loc main_arg4))
    (fun q => shapeCast S1x64 (m ((c : Thread nD τ).loc main_arg3)) shapeCasts_S64_S1x64 (ix2 (0 : Fin 1) q)) (Ideal.ofBits .f32 0x00000000#32)

/-- The second hidden layer. -/
def H1 : (⟨S100000x64, .bf16⟩ : BufTy).Contents (Elt Ideal) :=
  Cert.Sage.hidK (n := 100000) (nbr m c (H0 m c)) (fun p => invE m c (ix2 p (0 : Fin 1))) (H0 m c) (m ((c : Thread nD τ).loc main_arg5)) (m ((c : Thread nD τ).loc main_arg7))
    (fun q => shapeCast S1x64 (m ((c : Thread nD τ).loc main_arg6)) shapeCasts_S64_S1x64 (ix2 (0 : Fin 1) q)) (Ideal.ofBits .f32 0x00000000#32)

/-- The third hidden layer. -/
def H2 : Cert.Sage.M 100000 64 :=
  Cert.Sage.hidK (n := 100000) (nbr m c (H1 m c)) (fun p => invE m c (ix2 p (0 : Fin 1))) (H1 m c) (m ((c : Thread nD τ).loc main_arg8)) (m ((c : Thread nD τ).loc main_arg10))
    (fun q => shapeCast S1x64 (m ((c : Thread nD τ).loc main_arg9)) shapeCasts_S64_S1x64 (ix2 (0 : Fin 1) q)) (Ideal.ofBits .f32 0x00000000#32)

/-- The result: the output layer of the three hidden layers. -/
def KOut : Cert.Sage.M 100000 32 :=
  Cert.Sage.outK (H0 m c) (H1 m c) (H2 m c)
    (extractStridedSlice S64x32 ![0, 0] (m ((c : Thread nD τ).loc main_arg11)) slices_S192x32_S64x32_0_0)
    (extractStridedSlice S64x32 ![64, 0] (m ((c : Thread nD τ).loc main_arg11)) slices_S192x32_S64x32_64_0)
    (extractStridedSlice S64x32 ![128, 0] (m ((c : Thread nD τ).loc main_arg11)) slices_S192x32_S64x32_128_0)
    (fun q => shapeCast S1x32 (m ((c : Thread nD τ).loc main_arg12)) shapeCasts_S32_S1x32 (ix2 (0 : Fin 1) q))

/-! ## The argument arrays, where they are read -/

theorem w2_arg0 : W2 m ρ c (Proc.devRef .tc main_arg0) = m ((c : Thread nD τ).loc main_arg0) :=
  (keep01 (W1 m ρ c) main_arg0 (by decide)).trans ((keep0 (W0 m ρ c) main_arg0 (by decide)).trans (rfl))
theorem w2_arg3 : W2 m ρ c (Proc.devRef .tc main_arg3) = m ((c : Thread nD τ).loc main_arg3) :=
  (keep01 (W1 m ρ c) main_arg3 (by decide)).trans ((keep0 (W0 m ρ c) main_arg3 (by decide)).trans (rfl))
theorem w3_arg2 : W3 m ρ c (Proc.devRef .tc main_arg2) = m ((c : Thread nD τ).loc main_arg2) :=
  (keep02 (W2 m ρ c) main_arg2 (by decide)).trans ((keep01 (W1 m ρ c) main_arg2 (by decide)).trans ((keep0 (W0 m ρ c) main_arg2 (by decide)).trans (rfl)))
theorem w3_arg4 : W3 m ρ c (Proc.devRef .tc main_arg4) = m ((c : Thread nD τ).loc main_arg4) :=
  (keep02 (W2 m ρ c) main_arg4 (by decide)).trans ((keep01 (W1 m ρ c) main_arg4 (by decide)).trans ((keep0 (W0 m ρ c) main_arg4 (by decide)).trans (rfl)))
theorem w4_arg6 : W4 m ρ c (Proc.devRef .tc main_arg6) = m ((c : Thread nD τ).loc main_arg6) :=
  (W4_of_ne m ρ c main_arg6 (by decide)).trans ((keep02 (W2 m ρ c) main_arg6 (by decide)).trans ((keep01 (W1 m ρ c) main_arg6 (by decide)).trans ((keep0 (W0 m ρ c) main_arg6 (by decide)).trans (rfl))))
theorem w5_arg5 : W5 m ρ c (Proc.devRef .tc main_arg5) = m ((c : Thread nD τ).loc main_arg5) :=
  (keep1 (W4 m ρ c) main_arg5 (by decide)).trans ((W4_of_ne m ρ c main_arg5 (by decide)).trans ((keep02 (W2 m ρ c) main_arg5 (by decide)).trans ((keep01 (W1 m ρ c) main_arg5 (by decide)).trans ((keep0 (W0 m ρ c) main_arg5 (by decide)).trans (rfl)))))
theorem w5_arg7 : W5 m ρ c (Proc.devRef .tc main_arg7) = m ((c : Thread nD τ).loc main_arg7) :=
  (keep1 (W4 m ρ c) main_arg7 (by decide)).trans ((W4_of_ne m ρ c main_arg7 (by decide)).trans ((keep02 (W2 m ρ c) main_arg7 (by decide)).trans ((keep01 (W1 m ρ c) main_arg7 (by decide)).trans ((keep0 (W0 m ρ c) main_arg7 (by decide)).trans (rfl)))))
theorem w6_arg9 : W6 m ρ c (Proc.devRef .tc main_arg9) = m ((c : Thread nD τ).loc main_arg9) :=
  (W6_of_ne m ρ c main_arg9 (by decide)).trans ((keep1 (W4 m ρ c) main_arg9 (by decide)).trans ((W4_of_ne m ρ c main_arg9 (by decide)).trans ((keep02 (W2 m ρ c) main_arg9 (by decide)).trans ((keep01 (W1 m ρ c) main_arg9 (by decide)).trans ((keep0 (W0 m ρ c) main_arg9 (by decide)).trans (rfl))))))
theorem w6_arg11 : W6 m ρ c (Proc.devRef .tc main_arg11) = m ((c : Thread nD τ).loc main_arg11) :=
  (W6_of_ne m ρ c main_arg11 (by decide)).trans ((keep1 (W4 m ρ c) main_arg11 (by decide)).trans ((W4_of_ne m ρ c main_arg11 (by decide)).trans ((keep02 (W2 m ρ c) main_arg11 (by decide)).trans ((keep01 (W1 m ρ c) main_arg11 (by decide)).trans ((keep0 (W0 m ρ c) main_arg11 (by decide)).trans (rfl))))))
theorem w6_arg12 : W6 m ρ c (Proc.devRef .tc main_arg12) = m ((c : Thread nD τ).loc main_arg12) :=
  (W6_of_ne m ρ c main_arg12 (by decide)).trans ((keep1 (W4 m ρ c) main_arg12 (by decide)).trans ((W4_of_ne m ρ c main_arg12 (by decide)).trans ((keep02 (W2 m ρ c) main_arg12 (by decide)).trans ((keep01 (W1 m ρ c) main_arg12 (by decide)).trans ((keep0 (W0 m ρ c) main_arg12 (by decide)).trans (rfl))))))
theorem w7_arg8 : W7 m ρ c (Proc.devRef .tc main_arg8) = m ((c : Thread nD τ).loc main_arg8) :=
  (keep2 (W6 m ρ c) main_arg8 (by decide)).trans ((W6_of_ne m ρ c main_arg8 (by decide)).trans ((keep1 (W4 m ρ c) main_arg8 (by decide)).trans ((W4_of_ne m ρ c main_arg8 (by decide)).trans ((keep02 (W2 m ρ c) main_arg8 (by decide)).trans ((keep01 (W1 m ρ c) main_arg8 (by decide)).trans ((keep0 (W0 m ρ c) main_arg8 (by decide)).trans (rfl)))))))
theorem w7_arg10 : W7 m ρ c (Proc.devRef .tc main_arg10) = m ((c : Thread nD τ).loc main_arg10) :=
  (keep2 (W6 m ρ c) main_arg10 (by decide)).trans ((W6_of_ne m ρ c main_arg10 (by decide)).trans ((keep1 (W4 m ρ c) main_arg10 (by decide)).trans ((W4_of_ne m ρ c main_arg10 (by decide)).trans ((keep02 (W2 m ρ c) main_arg10 (by decide)).trans ((keep01 (W1 m ρ c) main_arg10 (by decide)).trans ((keep0 (W0 m ρ c) main_arg10 (by decide)).trans (rfl)))))))

/-! ## The first three stretches -/

theorem w1_v1 : W1 m ρ c (Proc.devRef .tc main_v1) = src (m ((c : Thread nD τ).loc main_arg1)) := h0_v1 (W0 m ρ c)
theorem w1_v3 : W1 m ρ c (Proc.devRef .tc main_v3) = dst (m ((c : Thread nD τ).loc main_arg1)) := h0_v3 (W0 m ρ c)
theorem w1_v7 : W1 m ρ c (Proc.devRef .tc main_v7) = cnt (dst (m ((c : Thread nD τ).loc main_arg1))) := h0_v7 (W0 m ρ c)
theorem w1_cst1 : W1 m ρ c (Proc.devRef .tc main_cst_1) = constant (F := Ideal) S_ .f32 0x3F800000#32 := h0_cst1 (W0 m ρ c)

theorem w2_v8 : W2 m ρ c (Proc.devRef .tc main_v8) = degE m c :=
  (h01_v8 (W1 m ρ c)).trans (by rw [w1_cst1 m ρ c, w1_v7 m ρ c]; rfl)
theorem w2_v1 : W2 m ρ c (Proc.devRef .tc main_v1) = src (m ((c : Thread nD τ).loc main_arg1)) := (keep01 (W1 m ρ c) main_v1 (by decide)).trans (w1_v1 m ρ c)
theorem w2_v3 : W2 m ρ c (Proc.devRef .tc main_v3) = dst (m ((c : Thread nD τ).loc main_arg1)) := (keep01 (W1 m ρ c) main_v3 (by decide)).trans (w1_v3 m ρ c)
theorem w3_v1 : W3 m ρ c (Proc.devRef .tc main_v1) = src (m ((c : Thread nD τ).loc main_arg1)) := (keep02 (W2 m ρ c) main_v1 (by decide)).trans (w2_v1 m ρ c)
theorem w3_v3 : W3 m ρ c (Proc.devRef .tc main_v3) = dst (m ((c : Thread nD τ).loc main_arg1)) := (keep02 (W2 m ρ c) main_v3 (by decide)).trans (w2_v3 m ρ c)

/-! ## Region 0 -/

theorem e3_v23 : V3 m ρ c main_v23 = nbr m c (feat m c) :=
  (h02_v23 (W2 m ρ c)).trans (by rw [w2_v1 m ρ c, w2_v3 m ρ c, w2_arg0 m ρ c]; rfl)
theorem e3_v11 : V3 m ρ c main_v11 = invE m c := (h02_v11 (W2 m ρ c)).trans (by rw [w2_v8 m ρ c]; rfl)
theorem e3_v12 : V3 m ρ c main_v12 = feat m c := (h02_v12 (W2 m ρ c)).trans (by rw [w2_arg0 m ρ c]; rfl)
theorem e3_v24 : V3 m ρ c main_v24 = shapeCast S1x64 (m ((c : Thread nD τ).loc main_arg3)) shapeCasts_S64_S1x64 :=
  (h02_v24 (W2 m ρ c)).trans (by rw [w2_arg3 m ρ c])

/-- After region 0 its result array holds the first hidden layer. -/
theorem w4_v25 : W4 m ρ c (Proc.devRef .tc main_v25) = H0 m c :=
  (W4_arr m ρ c 6).trans ((Cert.KernelIdeal.Region0.final0 (V3 m ρ) c).trans
    (Cert.Sage.hidK_congr _ (e3_v23 m ρ c) (funext fun p => congrFun (e3_v11 m ρ c) _) (e3_v12 m ρ c) (w3_arg2 m ρ c)
      (w3_arg4 m ρ c) (funext fun q => congrFun (e3_v24 m ρ c) _)))

theorem w4_v1 : W4 m ρ c (Proc.devRef .tc main_v1) = src (m ((c : Thread nD τ).loc main_arg1)) := (W4_of_ne m ρ c main_v1 (by decide)).trans (w3_v1 m ρ c)
theorem w4_v3 : W4 m ρ c (Proc.devRef .tc main_v3) = dst (m ((c : Thread nD τ).loc main_arg1)) := (W4_of_ne m ρ c main_v3 (by decide)).trans (w3_v3 m ρ c)
/-- The reciprocal degrees are an input of region 0: it leaves them as they were. -/
theorem w4_v11 : W4 m ρ c (Proc.devRef .tc main_v11) = invE m c :=
  ((W4_arr m ρ c 1).trans (((dat0 (V3 m ρ) c).arrAt_in 1 rfl _).trans (A_eq0 (V3 m ρ) c 1))).trans (e3_v11 m ρ c)

/-! ## Region 1 -/

theorem e5_v36 : V5 m ρ c main_v36 = nbr m c (H0 m c) :=
  (h1_v36 (W4 m ρ c)).trans (by rw [w4_v1 m ρ c, w4_v3 m ρ c, w4_v25 m ρ c]; rfl)
theorem e5_v11 : V5 m ρ c main_v11 = invE m c := (keep1 (W4 m ρ c) main_v11 (by decide)).trans (w4_v11 m ρ c)
theorem e5_v25 : V5 m ρ c main_v25 = H0 m c := (keep1 (W4 m ρ c) main_v25 (by decide)).trans (w4_v25 m ρ c)
theorem e5_v37 : V5 m ρ c main_v37 = shapeCast S1x64 (m ((c : Thread nD τ).loc main_arg6)) shapeCasts_S64_S1x64 :=
  (h1_v37 (W4 m ρ c)).trans (by rw [w4_arg6 m ρ c])

/-- After region 1 its result array holds the second hidden layer. -/
theorem w6_v38 : W6 m ρ c (Proc.devRef .tc main_v38) = H1 m c :=
  (W6_arr m ρ c 6).trans ((Cert.KernelIdeal.Region1.final1 (V5 m ρ) c).trans
    (Cert.Sage.hidK_congr _ (e5_v36 m ρ c) (funext fun p => congrFun (e5_v11 m ρ c) _) (e5_v25 m ρ c) (w5_arg5 m ρ c)
      (w5_arg7 m ρ c) (funext fun q => congrFun (e5_v37 m ρ c) _)))

theorem w6_v1 : W6 m ρ c (Proc.devRef .tc main_v1) = src (m ((c : Thread nD τ).loc main_arg1)) :=
  (W6_of_ne m ρ c main_v1 (by decide)).trans ((keep1 (W4 m ρ c) main_v1 (by decide)).trans (w4_v1 m ρ c))
theorem w6_v3 : W6 m ρ c (Proc.devRef .tc main_v3) = dst (m ((c : Thread nD τ).loc main_arg1)) :=
  (W6_of_ne m ρ c main_v3 (by decide)).trans ((keep1 (W4 m ρ c) main_v3 (by decide)).trans (w4_v3 m ρ c))
/-- The reciprocal degrees and the first hidden layer are inputs of region 1: it leaves them as they were. -/
theorem w6_v11 : W6 m ρ c (Proc.devRef .tc main_v11) = invE m c :=
  ((W6_arr m ρ c 1).trans (((dat1 (V5 m ρ) c).arrAt_in 1 rfl _).trans (A_eq1 (V5 m ρ) c 1))).trans (e5_v11 m ρ c)
theorem w6_v25 : W6 m ρ c (Proc.devRef .tc main_v25) = H0 m c :=
  ((W6_arr m ρ c 2).trans (((dat1 (V5 m ρ) c).arrAt_in 2 rfl _).trans (A_eq1 (V5 m ρ) c 2))).trans (e5_v25 m ρ c)

/-! ## Region 2 -/

theorem e7_v49 : V7 m ρ c main_v49 = nbr m c (H1 m c) :=
  (h2_v49 (W6 m ρ c)).trans (by rw [w6_v1 m ρ c, w6_v3 m ρ c, w6_v38 m ρ c]; rfl)
theorem e7_v11 : V7 m ρ c main_v11 = invE m c := (keep2 (W6 m ρ c) main_v11 (by decide)).trans (w6_v11 m ρ c)
theorem e7_v38 : V7 m ρ c main_v38 = H1 m c := (keep2 (W6 m ρ c) main_v38 (by decide)).trans (w6_v38 m ρ c)
theorem e7_v25 : V7 m ρ c main_v25 = H0 m c := (keep2 (W6 m ρ c) main_v25 (by decide)).trans (w6_v25 m ρ c)
theorem e7_v50 : V7 m ρ c main_v50 = shapeCast S1x64 (m ((c : Thread nD τ).loc main_arg9)) shapeCasts_S64_S1x64 :=
  (h2_v50 (W6 m ρ c)).trans (by rw [w6_arg9 m ρ c])
theorem e7_v51 : V7 m ρ c main_v51 = shapeCast S1x32 (m ((c : Thread nD τ).loc main_arg12)) shapeCasts_S32_S1x32 :=
  (h2_v51 (W6 m ρ c)).trans (by rw [w6_arg12 m ρ c])
theorem e7_v52 : V7 m ρ c main_v52 = extractStridedSlice S64x32 ![0, 0] (m ((c : Thread nD τ).loc main_arg11)) slices_S192x32_S64x32_0_0 :=
  (h2_v52 (W6 m ρ c)).trans (by rw [w6_arg11 m ρ c])
theorem e7_v53 : V7 m ρ c main_v53 = extractStridedSlice S64x32 ![64, 0] (m ((c : Thread nD τ).loc main_arg11)) slices_S192x32_S64x32_64_0 :=
  (h2_v53 (W6 m ρ c)).trans (by rw [w6_arg11 m ρ c])
theorem e7_v54 : V7 m ρ c main_v54 = extractStridedSlice S64x32 ![128, 0] (m ((c : Thread nD τ).loc main_arg11)) slices_S192x32_S64x32_128_0 :=
  (h2_v54 (W6 m ρ c)).trans (by rw [w6_arg11 m ρ c])

/-- At the return the result buffer holds the output layer of the three hidden layers. -/
theorem kernel_value : W8 m ρ c (Proc.devRef .tc main_v55) = KOut m c :=
  (W8_arr m ρ c 11).trans ((Cert.KernelIdeal.Region2.final2 (V7 m ρ) c).trans
    (Cert.Sage.outK_congr (e7_v25 m ρ c) (e7_v38 m ρ c)
      (Cert.Sage.hidK_congr _ (e7_v49 m ρ c) (funext fun p => congrFun (e7_v11 m ρ c) _) (e7_v38 m ρ c) (w7_arg8 m ρ c)
        (w7_arg10 m ρ c) (funext fun q => congrFun (e7_v50 m ρ c) _))
      (e7_v52 m ρ c) (e7_v53 m ρ c) (e7_v54 m ρ c) (funext fun q => congrFun (e7_v51 m ρ c) _)))

end Cert.KernelIdeal.Fold

end
-- ==== Proof.GlueReads.lean ====
/-
  The small host steps around the three calls, read at an index.

  Between the calls the host prepares a few arrays by pure layout steps and one division: the reciprocal degree as a
  column (the constant one, spread over the nodes, divided by the degree, then given a unit second axis), each bias
  vector as a one-row matrix, the three 64-row blocks of the 192 × 32 output matrix, and the node features passed
  through a change of float format. On the extended reals the last is the identity; the others read one entry of
  their operand, named here with literal coordinates: entry (p, 0) of the column is 1 / degree p, entry (0, q) of a
  bias row is entry q of the vector, and row j of the block starting at row o is row j + o of the matrix.
-/
import proofs.«181150_j87256555585790_2_alg».proof.Proof.FoldHost
import proofs.«181150_j87256555585790_2_alg».proof.Proof.Spec
import Idealize.ShloMosaic.Lib.Pipeline.Value
import Idealize.ShloMosaic.Lib.ValueIdx
import Idealize.ShloMosaic.Lib.ValueLayout
import Idealize.ShloMosaic.Lib.IdealHost

noncomputable section

namespace Cert.KernelIdeal.GlueReads

open Cert.KernelIdeal Cert.KernelIdeal.Gen
open Idealize.ShloMosaic Idealize.ShloMosaic.ValueIdx

/-- Entry (p, 0) of the column of reciprocal degrees is one divided by the degree of node p. -/
theorem inv_apply (dg : FVec Ideal S100000 .f32) (p : Fin 100000) :
    Cert.KernelIdeal.Glue.inv dg (ix2 p (0 : Fin 1)) = Ideal.div 1 (dg (ix1 p)) := by
  unfold Cert.KernelIdeal.Glue.inv
  refine (broadcastInDim_apply ![0] bcast_S100000_S100000x1_0 _ (ix2 p (0 : Fin 1)) (ix1 p) (fun a => ?_)).trans ?_
  · match a with
    | ⟨0, _⟩ => show p.val = if (100000 : Nat) = 1 then 0 else p.val; rw [if_neg (by decide)]
  · show Ideal.div (broadcastInDim S100000 ![] bcast_S_S100000 (constant (F := Ideal) S_ .f32 0x3F800000#32) (ix1 p)) (dg (ix1 p)) = _
    rw [broadcastInDim_scalar_apply, constant_apply, Ideal.ofBits_one_f32]

/-- Entry (0, q) of a 64-entry bias vector laid as a row is entry q of the vector. -/
theorem bias64_apply (b : (⟨S64, .f32⟩ : BufTy).Contents (Elt Ideal)) (q : Fin 64) :
    shapeCast S1x64 b shapeCasts_S64_S1x64 (ix2 (0 : Fin 1) q) = b (ix1 q) :=
  shapeCast_a_1a_apply b shapeCasts_S64_S1x64 (0 : Fin 1) q

/-- Entry (0, q) of the 32-entry output bias laid as a row is entry q of the vector. -/
theorem bias32_apply (b : (⟨S32, .f32⟩ : BufTy).Contents (Elt Ideal)) (q : Fin 32) :
    shapeCast S1x32 b shapeCasts_S32_S1x32 (ix2 (0 : Fin 1) q) = b (ix1 q) :=
  shapeCast_a_1a_apply b shapeCasts_S32_S1x32 (0 : Fin 1) q

/-- The first 64 rows of the output matrix. -/
theorem rows0 (W : (⟨S192x32, .f32⟩ : BufTy).Contents (Elt Ideal)) :
    extractStridedSlice S64x32 ![0, 0] W slices_S192x32_S64x32_0_0 = Cert.Sage.rowsFrom 0 (by omega) W := by
  funext i
  obtain ⟨j, e, rfl⟩ : ∃ (j : Fin 64) (e : Fin 32), i = ix2 j e := ⟨i 0, i 1, eq_ix2 i⟩
  exact slice2_axis0_apply 0 W slices_S192x32_S64x32_0_0 j e ⟨j.val + 0, by have := j.isLt; omega⟩ (by show j.val + 0 = 0 + j.val; omega)

/-- Rows 64 to 127 of the output matrix. -/
theorem rows64 (W : (⟨S192x32, .f32⟩ : BufTy).Contents (Elt Ideal)) :
    extractStridedSlice S64x32 ![64, 0] W slices_S192x32_S64x32_64_0 = Cert.Sage.rowsFrom 64 (by omega) W := by
  funext i
  obtain ⟨j, e, rfl⟩ : ∃ (j : Fin 64) (e : Fin 32), i = ix2 j e := ⟨i 0, i 1, eq_ix2 i⟩
  exact slice2_axis0_apply 64 W slices_S192x32_S64x32_64_0 j e ⟨j.val + 64, by have := j.isLt; omega⟩ (by show j.val + 64 = 64 + j.val; omega)

/-- Rows 128 to 191 of the output matrix. -/
theorem rows128 (W : (⟨S192x32, .f32⟩ : BufTy).Contents (Elt Ideal)) :
    extractStridedSlice S64x32 ![128, 0] W slices_S192x32_S64x32_128_0 = Cert.Sage.rowsFrom 128 (by omega) W := by
  funext i
  obtain ⟨j, e, rfl⟩ : ∃ (j : Fin 64) (e : Fin 32), i = ix2 j e := ⟨i 0, i 1, eq_ix2 i⟩
  exact slice2_axis0_apply 128 W slices_S192x32_S64x32_128_0 j e ⟨j.val + 128, by have := j.isLt; omega⟩ (by show j.val + 128 = 128 + j.val; omega)

/-- On the extended reals the change to the narrower float format leaves the node features as they are. -/
theorem trunc_id (x : (⟨S100000x64, .f32⟩ : BufTy).Contents (Elt Ideal)) :
    truncf (F := Ideal) (s := S100000x64) (φ := .f32) .bf16 x bitsLt_bf16_f32 = x :=
  funext fun _ => rfl

end Cert.KernelIdeal.GlueReads

end
-- ==== Proof.LibConcat3.lean ====
/-
  A concatenation of three matrices with the same number of rows, side by side, read at an entry.

  `[n, a]`, `[n, b]` and `[n, c]` concatenated along axis `1` give `[n, a + b + c]`. Column `j` of the result lies in
  exactly one of the three bands `[0, a)`, `[a, a + b)`, `[a + b, a + b + c)`; written from the band's side, column `k` of
  the first matrix is column `k` of the result, column `k` of the second is column `a + k`, and column `k` of the third is
  column `a + b + k`. Each lemma takes the result's column `j` together with the equation placing it in its band, so
  that it applies whichever way the sum is spelled.
-/
import Idealize.ShloMosaic.PureOps.ShapeOps
import Idealize.ShloMosaic.Lib.ValueIdx
import Idealize.ShloMosaic.Lib.Pipeline.Value

namespace Cert.Lib.Concat3

open Idealize.ShloMosaic Idealize.ShloMosaic.ValueIdx

variable {α : Type} {n a b c d : Nat}

/-- First band: entry `(p, j)` with `j = k`, `k` a column of the first matrix, is the first matrix's entry `(p, k)`. -/
theorem concat3_cols_apply_first (A : (⟨2, ![n, a]⟩ : Shape).Idx → α) (B : (⟨2, ![n, b]⟩ : Shape).Idx → α)
    (C : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (p : Fin n) (k : Fin a) (j : Fin d) (hj : j.val = k.val) :
    concatenate ⟨2, ![n, d]⟩ (1 : Fin 2) [⟨⟨2, ![n, a]⟩, A⟩, ⟨⟨2, ![n, b]⟩, B⟩, ⟨⟨2, ![n, c]⟩, C⟩] h (ix2 p j)
      = A (ix2 p k) := by
  refine concatenate_apply_piece (t := ⟨2, ![n, d]⟩) (1 : Fin 2)
    ([⟨⟨2, ![n, a]⟩, A⟩, ⟨⟨2, ![n, b]⟩, B⟩, ⟨⟨2, ![n, c]⟩, C⟩] : List ((s : Shape) × (s.Idx → α))) h (ix2 p j) 0 (by simp) ⟨2, ![n, a]⟩ A rfl rfl 0 ?_
    (ix2 p k) ?_ ?_
  · simp
  · intro e he
    match e, he with
    | ⟨0, _⟩, _ => rfl
    | ⟨1, _⟩, he => exact absurd rfl he
  · show 0 + k.val = j.val
    omega

/-- Second band: entry `(p, j)` with `j = a + k`, `k` a column of the second matrix, is the second matrix's entry
    `(p, k)`. -/
theorem concat3_cols_apply_second (A : (⟨2, ![n, a]⟩ : Shape).Idx → α) (B : (⟨2, ![n, b]⟩ : Shape).Idx → α)
    (C : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (p : Fin n) (k : Fin b) (j : Fin d) (hj : j.val = a + k.val) :
    concatenate ⟨2, ![n, d]⟩ (1 : Fin 2) [⟨⟨2, ![n, a]⟩, A⟩, ⟨⟨2, ![n, b]⟩, B⟩, ⟨⟨2, ![n, c]⟩, C⟩] h (ix2 p j)
      = B (ix2 p k) := by
  refine concatenate_apply_piece (t := ⟨2, ![n, d]⟩) (1 : Fin 2)
    ([⟨⟨2, ![n, a]⟩, A⟩, ⟨⟨2, ![n, b]⟩, B⟩, ⟨⟨2, ![n, c]⟩, C⟩] : List ((s : Shape) × (s.Idx → α))) h (ix2 p j) 1 (by simp) ⟨2, ![n, b]⟩ B rfl rfl a ?_
    (ix2 p k) ?_ ?_
  · simp
  · intro e he
    match e, he with
    | ⟨0, _⟩, _ => rfl
    | ⟨1, _⟩, he => exact absurd rfl he
  · show a + k.val = j.val
    omega

/-- Third band: entry `(p, j)` with `j = a + b + k`, `k` a column of the third matrix, is the third matrix's entry
    `(p, k)`. -/
theorem concat3_cols_apply_third (A : (⟨2, ![n, a]⟩ : Shape).Idx → α) (B : (⟨2, ![n, b]⟩ : Shape).Idx → α)
    (C : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (p : Fin n) (k : Fin c) (j : Fin d) (hj : j.val = a + b + k.val) :
    concatenate ⟨2, ![n, d]⟩ (1 : Fin 2) [⟨⟨2, ![n, a]⟩, A⟩, ⟨⟨2, ![n, b]⟩, B⟩, ⟨⟨2, ![n, c]⟩, C⟩] h (ix2 p j)
      = C (ix2 p k) := by
  refine concatenate_apply_piece (t := ⟨2, ![n, d]⟩) (1 : Fin 2)
    ([⟨⟨2, ![n, a]⟩, A⟩, ⟨⟨2, ![n, b]⟩, B⟩, ⟨⟨2, ![n, c]⟩, C⟩] : List ((s : Shape) × (s.Idx → α))) h (ix2 p j) 2 (by simp) ⟨2, ![n, c]⟩ C rfl rfl (a + b) ?_
    (ix2 p k) ?_ ?_
  · simp
  · intro e he
    match e, he with
    | ⟨0, _⟩, _ => rfl
    | ⟨1, _⟩, he => exact absurd rfl he
  · show a + b + k.val = j.val
    omega

end Cert.Lib.Concat3
-- ==== Proof.RefSide.lean ====
/-
  The reference program's four stages, read as mathematics on the extended reals.

  The reference computes, three times over, a hidden layer

      max (∑ k, (a (p, k) / d p) · Wl (k, q)  +  bl q  +  ∑ k, h (p, k) · Wr (k, q))  0

  where `a` is the sum of the neighbours' feature rows (a gather along the edges' sources followed by a scatter-add at
  their destinations) and `d p` is the larger of `1` and the number of edges arriving at `p`. The neighbour sum is kept
  as ONE whole-array function `aggR` of the features: nothing here looks inside the gather or the scatter-add. The
  degree is `degR`, never zero because it is at least `1`. The three layers are the same term at different operands
  (`layerTerm`), so one lemma about arbitrary arrays (`hid_generic`) reads it entry by entry, and `layerTerm_eq` is its
  instance at the reference's arrays: each matrix product is a sum over the 64
  contracted columns, the quotient is taken entry by entry, the degree column and the bias row are broadcasts, and the
  rectifier is a maximum with the zero splat. The output stage lays the three layers side by side, multiplies by a
  `192 × 32` matrix and adds a bias; its 192-term sums split into the three bands of 64 columns, and in each band the
  concatenation is one of the layers.
-/
import proofs.«181150_j87256555585790_2_alg».proof.Proof.Gen.ReferenceIdeal.Read
import proofs.«181150_j87256555585790_2_alg».proof.Proof.Spec
import proofs.«181150_j87256555585790_2_alg».proof.Proof.LibConcat3
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A `100000 × 64` array of features. -/
abbrev Feat := (⟨S100000x64, .f32⟩ : BufTy).Contents (Elt Ideal)
/-- The `2 × 1200000` array of edges: row 0 the sources, row 1 the destinations. -/
abbrev Edges := (⟨S2x1200000, .i32⟩ : BufTy).Contents (Elt Ideal)
/-- A `64 × 64` weight matrix. -/
abbrev Wt := (⟨S64x64, .f32⟩ : BufTy).Contents (Elt Ideal)
/-- A bias of 64 entries. -/
abbrev Bias := (⟨S64, .f32⟩ : BufTy).Contents (Elt Ideal)

/-! ## The neighbour sum and the degree -/

/-- The neighbour sum as one whole-array function of the features `h`: the rows of `h` gathered at the edges' sources,
    scatter-added into zeros at the edges' destinations. -/
def aggR (x1 : Edges) (h : Feat) : Feat :=
  Host.scatterAdd (F := Ideal) (φ := .f32) scatter_S100000x64_S1200000x1_S1200000x64_1_0_0_1 (val_main_v17 (F := Ideal))
    (val_main_v18 (F := Ideal) x1)
    (Host.gather (α := Ideal .f32) gather_S100000x64_S1200000x1_S1200000x64_1_0_n_n_0_1_164 h (val_main_v15 (F := Ideal) x1))

/-- The degree of node `p`: the larger of `1` and the number of edges arriving at `p`. -/
def degR (x1 : Edges) : Fin 100000 → EReal := fun p => val_main_v8 (F := Ideal) x1 (ix1 p)

/-- The degree is at least `1`, so it is not zero. -/
theorem degR_ne_zero (x1 : Edges) (p : Fin 100000) : degR x1 p ≠ 0 := by
  unfold degR
  rw [val_main_v8_apply, val_main_call0_v1_apply, val_main_call0_v0_apply, val_main_cst_1_apply, Ideal.ofBits_def,
    Ideal.ofBits_one_f32, Ideal.maximumf_def]
  exact (lt_of_lt_of_le zero_lt_one (le_max_left _ _)).ne'

/-- Layer 0's neighbour sum is `aggR` of the input features. -/
theorem agg0 (x0 : Feat) (x1 : Edges) : val_main_v19 (F := Ideal) x0 x1 = aggR x1 x0 := rfl

/-! ## Broadcasts and the matrix product at an entry -/

/-- The degree column broadcast along the 64 features reads, at `(p, k)`, the degree of `p`. -/
theorem deg_bcast (x1 : Edges) (p : Fin 100000) (k : Fin 64) : val_main_v20 (F := Ideal) x1 (ix2 p k) = degR x1 p := by
  rw [val_main_v20_apply, val_main_v9_apply]
  exact congrArg (val_main_v8 (F := Ideal) x1) (funext fun a => match a with | ⟨0, _⟩ => rfl)

/-- The bias row broadcast along the nodes reads, at `(p, q)`, the bias entry `q`. -/
theorem bias_bcast (b : Bias) (p : Fin 100000) (q : Fin 64) : val_main_v24 (F := Ideal) b (ix2 p q) = b (ix1 q) := by
  rw [val_main_v24_apply, val_main_v23_apply]
  exact congrArg b (funext fun a => match a with | ⟨0, _⟩ => rfl)

/-- The rectifier's zero splat reads zero's bit pattern everywhere. -/
theorem relu_zero (i : S100000x64.Idx) : val_main_call1_v0 (F := Ideal) i = Ideal.ofBits .f32 0x00000000#32 := by
  rw [val_main_call1_v0_apply]; rfl

/-- The product of a `100000 × 64` and a `64 × 64` matrix at `(p, q)`: the sum over `k` of `l (p, k) · r (k, q)`. -/
theorem dot64_apply (l : Feat) (r : Wt) (p : Fin 100000) (q : Fin 64) :
    Host.dotGeneral (F := Ideal) (φ₁ := .f32) (φ₂ := .f32) dot_S100000x64_S64x64_S100000x64_1_0_0_1_n_n none l r (ix2 p q)
      = ∑ k : Fin 64, l (ix2 p k) * r (ix2 k q) := by
  refine (val_main_v26_apply l r (ix2 p q)).trans (Finset.sum_congr rfl fun k _ => ?_)
  have el : lidx_main_v26 (ix2 p q) k = ix2 p k := funext fun a => match a with | ⟨0, _⟩ => rfl | ⟨1, _⟩ => rfl
  have er : ridx_main_v26 (ix2 p q) k = ix2 k q := funext fun a => match a with | ⟨0, _⟩ => rfl | ⟨1, _⟩ => rfl
  rw [el, er]

/-! ## One hidden layer -/

/-- A hidden layer's term at arbitrary operands: features `h`, weights `Wl`, `Wr` and bias `b`. -/
def layerTerm (x1 : Edges) (h : Feat) (Wl Wr : Wt) (b : Bias) : Feat :=
  maximumf (F := Ideal) (φ := .f32)
    (addf (F := Ideal) (φ := .f32)
      (addf (F := Ideal) (φ := .f32)
        (Host.dotGeneral (F := Ideal) (φ₁ := .f32) (φ₂ := .f32) dot_S100000x64_S64x64_S100000x64_1_0_0_1_n_n none
          (Host.divf (F := Ideal) (φ := .f32) (aggR x1 h) (val_main_v20 (F := Ideal) x1)) Wl)
        (val_main_v24 (F := Ideal) b))
      (Host.dotGeneral (F := Ideal) (φ₁ := .f32) (φ₂ := .f32) dot_S100000x64_S64x64_S100000x64_1_0_0_1_n_n none h Wr))
    (val_main_call1_v0 (F := Ideal))

/-- A HIDDEN LAYER, ENTRY BY ENTRY, over any arrays: `a` the neighbour sums, `dd` an array whose row `p` is constantly
    `d p`, `bb` an array whose column `q` is constantly `bl q`, `zz` an array constantly `z`. The maximum with `z` of the
    product of the quotient `a / dd` with `Wl`, plus `bb`, plus the product of `h` with `Wr`, is `hidR`. -/
theorem hid_generic (a h dd bb zz : Feat) (Wl Wr : Wt) (d : Fin 100000 → EReal) (bl : Fin 64 → EReal) (z : EReal)
    (hd : ∀ (p : Fin 100000) (k : Fin 64), dd (ix2 p k) = d p) (hb : ∀ (p : Fin 100000) (q : Fin 64), bb (ix2 p q) = bl q)
    (hz : ∀ i : S100000x64.Idx, zz i = z) :
    maximumf (F := Ideal) (φ := .f32)
        (addf (F := Ideal) (φ := .f32)
          (addf (F := Ideal) (φ := .f32)
            (Host.dotGeneral (F := Ideal) (φ₁ := .f32) (φ₂ := .f32) dot_S100000x64_S64x64_S100000x64_1_0_0_1_n_n none
              (Host.divf (F := Ideal) (φ := .f32) a dd) Wl)
            bb)
          (Host.dotGeneral (F := Ideal) (φ₁ := .f32) (φ₂ := .f32) dot_S100000x64_S64x64_S100000x64_1_0_0_1_n_n none h Wr))
        zz
      = Cert.Sage.hidR (n := 100000) a d h Wl Wr bl z := by
  funext i
  obtain ⟨p, q, rfl⟩ : ∃ (p : Fin 100000) (q : Fin 64), i = ix2 p q := ⟨i 0, i 1, eq_ix2 i⟩
  rw [maximumf_apply, addf_apply, addf_apply, dot64_apply, dot64_apply, hb, hz]
  simp only [hostDivf_apply, hd]
  rfl

/-- THE REFERENCE'S HIDDEN LAYER: the maximum with zero of the mean-aggregated product, the bias and the root product,
    in the reference's order of addition. -/
theorem layerTerm_eq (x1 : Edges) (h : Feat) (Wl Wr : Wt) (b : Bias) :
    layerTerm x1 h Wl Wr b
      = Cert.Sage.hidR (n := 100000) (aggR x1 h) (degR x1) h Wl Wr (fun q => b (ix1 q)) (Ideal.ofBits .f32 0x00000000#32) :=
  hid_generic (aggR x1 h) h (val_main_v20 (F := Ideal) x1) (val_main_v24 (F := Ideal) b) (val_main_call1_v0 (F := Ideal)) Wl Wr
    (degR x1) (fun q => b (ix1 q)) (Ideal.ofBits .f32 0x00000000#32) (deg_bcast x1) (bias_bcast b) relu_zero

/-- Layer 0: the hidden layer at the input features. -/
theorem layer0 (x0 : Feat) (x1 : Edges) (x2 : Wt) (x3 : Bias) (x4 : Wt) :
    val_main_v28 (F := Ideal) x0 x1 x2 x3 x4
      = Cert.Sage.hidR (n := 100000) (aggR x1 x0) (degR x1) x0 x2 x4 (fun q => x3 (ix1 q)) (Ideal.ofBits .f32 0x00000000#32) :=
  (show val_main_v28 (F := Ideal) x0 x1 x2 x3 x4 = layerTerm x1 x0 x2 x4 x3 from rfl).trans (layerTerm_eq x1 x0 x2 x4 x3)

/-- Layer 1: the hidden layer at layer 0's output. -/
theorem layer1 (x0 : Feat) (x1 : Edges) (x2 : Wt) (x3 : Bias) (x4 x5 : Wt) (x6 : Bias) (x7 : Wt) :
    val_main_v47 (F := Ideal) x0 x1 x2 x3 x4 x5 x6 x7
      = Cert.Sage.hidR (n := 100000) (aggR x1 (val_main_v28 (F := Ideal) x0 x1 x2 x3 x4)) (degR x1)
          (val_main_v28 (F := Ideal) x0 x1 x2 x3 x4) x5 x7 (fun q => x6 (ix1 q)) (Ideal.ofBits .f32 0x00000000#32) :=
  (show val_main_v47 (F := Ideal) x0 x1 x2 x3 x4 x5 x6 x7
      = layerTerm x1 (val_main_v28 (F := Ideal) x0 x1 x2 x3 x4) x5 x7 x6 from rfl).trans
    (layerTerm_eq x1 (val_main_v28 (F := Ideal) x0 x1 x2 x3 x4) x5 x7 x6)

/-- Layer 2: the hidden layer at layer 1's output. -/
theorem layer2 (x0 : Feat) (x1 : Edges) (x2 : Wt) (x3 : Bias) (x4 x5 : Wt) (x6 : Bias) (x7 x8 : Wt) (x9 : Bias) (x10 : Wt) :
    val_main_v66 (F := Ideal) x0 x1 x2 x3 x4 x5 x6 x7 x8 x9 x10
      = Cert.Sage.hidR (n := 100000) (aggR x1 (val_main_v47 (F := Ideal) x0 x1 x2 x3 x4 x5 x6 x7)) (degR x1)
          (val_main_v47 (F := Ideal) x0 x1 x2 x3 x4 x5 x6 x7) x8 x10 (fun q => x9 (ix1 q)) (Ideal.ofBits .f32 0x00000000#32) :=
  (show val_main_v66 (F := Ideal) x0 x1 x2 x3 x4 x5 x6 x7 x8 x9 x10
      = layerTerm x1 (val_main_v47 (F := Ideal) x0 x1 x2 x3 x4 x5 x6 x7) x8 x10 x9 from rfl).trans
    (layerTerm_eq x1 (val_main_v47 (F := Ideal) x0 x1 x2 x3 x4 x5 x6 x7) x8 x10 x9)

/-- Layer 1's neighbour sum is `aggR` of layer 0's output. -/
theorem agg1 (x0 : Feat) (x1 : Edges) (x2 : Wt) (x3 : Bias) (x4 : Wt) :
    val_main_v38 (F := Ideal) x0 x1 x2 x3 x4 = aggR x1 (val_main_v28 (F := Ideal) x0 x1 x2 x3 x4) := rfl

/-- Layer 2's neighbour sum is `aggR` of layer 1's output. -/
theorem agg2 (x0 : Feat) (x1 : Edges) (x2 : Wt) (x3 : Bias) (x4 x5 : Wt) (x6 : Bias) (x7 : Wt) :
    val_main_v57 (F := Ideal) x0 x1 x2 x3 x4 x5 x6 x7 = aggR x1 (val_main_v47 (F := Ideal) x0 x1 x2 x3 x4 x5 x6 x7) := rfl

/-! ## The output stage -/

section Out
variable (x0 : Feat) (x1 : Edges) (x2 : Wt) (x3 : Bias) (x4 x5 : Wt) (x6 : Bias) (x7 x8 : Wt) (x9 : Bias) (x10 : Wt)

/-- Columns `0 … 63` of the three layers laid side by side are layer 0. -/
theorem cat_at_0 (p : Fin 100000) (k : Fin 64) (hk : k.val + 0 < 192) :
    val_main_v67 (F := Ideal) x0 x1 x2 x3 x4 x5 x6 x7 x8 x9 x10 (ix2 p (⟨k.val + 0, hk⟩ : Fin 192))
      = val_main_v28 (F := Ideal) x0 x1 x2 x3 x4 (ix2 p k) :=
  Cert.Lib.Concat3.concat3_cols_apply_first (n := 100000) (a := 64) (b := 64) (c := 64) (d := 192) _ _ _
    concatenates_S100000x64_S100000x64_S100000x64_S100000x192_d1 p k _ rfl

/-- Columns `64 … 127` are layer 1. -/
theorem cat_at_1 (p : Fin 100000) (k : Fin 64) (hk : k.val + 64 < 192) :
    val_main_v67 (F := Ideal) x0 x1 x2 x3 x4 x5 x6 x7 x8 x9 x10 (ix2 p (⟨k.val + 64, hk⟩ : Fin 192))
      = val_main_v47 (F := Ideal) x0 x1 x2 x3 x4 x5 x6 x7 (ix2 p k) :=
  Cert.Lib.Concat3.concat3_cols_apply_second (n := 100000) (a := 64) (b := 64) (c := 64) (d := 192) _ _ _
    concatenates_S100000x64_S100000x64_S100000x64_S100000x192_d1 p k _ (Nat.add_comm _ _)

/-- Columns `128 … 191` are layer 2. -/
theorem cat_at_2 (p : Fin 100000) (k : Fin 64) (hk : k.val + 128 < 192) :
    val_main_v67 (F := Ideal) x0 x1 x2 x3 x4 x5 x6 x7 x8 x9 x10 (ix2 p (⟨k.val + 128, hk⟩ : Fin 192))
      = val_main_v66 (F := Ideal) x0 x1 x2 x3 x4 x5 x6 x7 x8 x9 x10 (ix2 p k) :=
  Cert.Lib.Concat3.concat3_cols_apply_third (n := 100000) (a := 64) (b := 64) (c := 64) (d := 192) _ _ _
    concatenates_S100000x64_S100000x64_S100000x64_S100000x192_d1 p k _ (Nat.add_comm _ _)

end Out

/-- The output bias row broadcast along the nodes reads, at `(p, q)`, the bias entry `q`. -/
theorem out_bias_bcast (x12 : (⟨S32, .f32⟩ : BufTy).Contents (Elt Ideal)) (p : Fin 100000) (q : Fin 32) :
    val_main_v70 (F := Ideal) x12 (ix2 p q) = x12 (ix1 q) := by
  rw [val_main_v70_apply, val_main_v69_apply]
  exact congrArg x12 (funext fun a => match a with | ⟨0, _⟩ => rfl)

/-- THE OUTPUT STAGE, ENTRY BY ENTRY: the three layers times the three row blocks of the `192 × 32` matrix, plus the
    bias. -/
theorem out (x0 : Feat) (x1 : Edges) (x2 : Wt) (x3 : Bias) (x4 x5 : Wt) (x6 : Bias) (x7 x8 : Wt) (x9 : Bias) (x10 : Wt)
    (x11 : (⟨S192x32, .f32⟩ : BufTy).Contents (Elt Ideal)) (x12 : (⟨S32, .f32⟩ : BufTy).Contents (Elt Ideal)) :
    val_main_v71 (F := Ideal) x0 x1 x2 x3 x4 x5 x6 x7 x8 x9 x10 x11 x12
      = Cert.Sage.outK (n := 100000) (val_main_v28 (F := Ideal) x0 x1 x2 x3 x4)
          (val_main_v47 (F := Ideal) x0 x1 x2 x3 x4 x5 x6 x7) (val_main_v66 (F := Ideal) x0 x1 x2 x3 x4 x5 x6 x7 x8 x9 x10)
          (Cert.Sage.rowsFrom 0 (by omega) x11) (Cert.Sage.rowsFrom 64 (by omega) x11)
          (Cert.Sage.rowsFrom 128 (by omega) x11) (fun q => x12 (ix1 q)) := by
  funext i
  obtain ⟨p, q, rfl⟩ : ∃ (p : Fin 100000) (q : Fin 32), i = ix2 p q := ⟨i 0, i 1, eq_ix2 i⟩
  have el : ∀ k : Fin 192, lidx_main_v68 (ix2 p q) k = ix2 p k := fun k =>
    funext fun a => match a with | ⟨0, _⟩ => rfl | ⟨1, _⟩ => rfl
  have er : ∀ k : Fin 192, ridx_main_v68 (ix2 p q) k = ix2 k q := fun k =>
    funext fun a => match a with | ⟨0, _⟩ => rfl | ⟨1, _⟩ => rfl
  rw [val_main_v71_apply, val_main_v68_apply, Ideal.addf_def, out_bias_bcast]
  simp only [el, er]
  rw [Cert.Sage.sum192]
  simp only [cat_at_0, cat_at_1, cat_at_2]
  rfl

end Cert.ReferenceIdeal.RefValue

end
-- ==== Proof.Bridge.lean ====
/-
  The two programs compute one function.

  The kernel program's result is the output layer of three hidden layers in the reciprocal-degree form, over the
  neighbour sum, the degrees and the layout steps as its host operations print them; the reference's is the same
  network in the division form. The two neighbour sums are one term (the same gather and scatter-add on the same
  edge endpoints; a change of float format is the identity), and so are the two degrees; the degree is at least 1, so
  multiplying by its reciprocal is dividing by it; the narrowed features are the features; a bias laid out as a row is
  the bias; the three row blocks of the output matrix are its rows 0–63, 64–127 and 128–191. Layer by layer the hidden
  layers agree, and then so do the outputs.
-/
import proofs.«181150_j87256555585790_2_alg».proof.Proof.Fold
import proofs.«181150_j87256555585790_2_alg».proof.Proof.GlueReads
import proofs.«181150_j87256555585790_2_alg».proof.Proof.RefSide

set_option maxRecDepth 16384

noncomputable section

namespace Cert.Bridge

open Idealize.ShloMosaic Idealize.ShloMosaic.TcCoe Idealize.ShloMosaic.ValueIdx Idealize.SL.Sem
open Cert.ReferenceIdeal.RefValue Cert.ReferenceIdeal.Read

variable (m : (ℓ : Loc Cert.KernelIdeal.nD Cert.KernelIdeal.τ Cert.KernelIdeal.sig) → Buf (Elt Ideal) ℓ)
  (c : Dev Cert.KernelIdeal.nD)

/-- The node features. -/
abbrev X : Feat := (m ((c : Thread Cert.KernelIdeal.nD Cert.KernelIdeal.τ).loc Cert.KernelIdeal.main_arg0))
/-- The edges. -/
abbrev E : Edges := (m ((c : Thread Cert.KernelIdeal.nD Cert.KernelIdeal.τ).loc Cert.KernelIdeal.main_arg1))

/-- The narrowed features are the features. -/
theorem feat_eq : Cert.KernelIdeal.Fold.feat m c = X m c := Cert.KernelIdeal.GlueReads.trunc_id _

/-- The two programs' neighbour sums are one term. -/
theorem nbr_eq (h h' : Feat) (hh : h = h') : Cert.KernelIdeal.Fold.nbr m c h = aggR (E m c) h' := by
  subst hh
  rfl

/-- The two programs' degrees are one term. -/
theorem deg_fn_eq : Cert.KernelIdeal.Fold.degE m c = val_main_v8 (F := Ideal) (E m c) := rfl

/-- The degree of node `p`. -/
theorem deg_eq (p : Fin 100000) : Cert.KernelIdeal.Fold.degE m c (ix1 p) = degR (E m c) p :=
  congrFun (deg_fn_eq m c) (ix1 p)

/-- The kernel program's reciprocal degree of node `p`. -/
theorem inv_eq (p : Fin 100000) :
    Cert.KernelIdeal.Fold.invE m c (ix2 p (0 : Fin 1)) = Ideal.div 1 (degR (E m c) p) :=
  (Cert.KernelIdeal.GlueReads.inv_apply (Cert.KernelIdeal.Fold.degE m c) p).trans (congrArg (Ideal.div 1) (deg_eq m c p))

/-- The first hidden layers agree. -/
theorem H0_eq : Cert.KernelIdeal.Fold.H0 m c
    = val_main_v28 (F := Ideal) (X m c) (E m c) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  rw [layer0]
  refine Eq.trans ?_ (Cert.Sage.hid_eq _ _ (degR_ne_zero _) _ _ _ _ _)
  exact Cert.Sage.hidK_congr _ (nbr_eq m c _ _ (feat_eq m c)) (funext (inv_eq m c)) (feat_eq m c) rfl rfl
    (funext fun q => Cert.KernelIdeal.GlueReads.bias64_apply _ q)

/-- The second hidden layers agree. -/
theorem H1_eq : Cert.KernelIdeal.Fold.H1 m c
    = val_main_v47 (F := Ideal) (X m c) (E m c) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  rw [layer1]
  refine Eq.trans ?_ (Cert.Sage.hid_eq _ _ (degR_ne_zero _) _ _ _ _ _)
  exact Cert.Sage.hidK_congr _ (nbr_eq m c _ _ (H0_eq m c)) (funext (inv_eq m c)) (H0_eq m c) rfl rfl
    (funext fun q => Cert.KernelIdeal.GlueReads.bias64_apply _ q)

/-- The third hidden layers agree. -/
theorem H2_eq : Cert.KernelIdeal.Fold.H2 m c
    = val_main_v66 (F := Ideal) (X m c) (E m c) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  rw [layer2]
  refine Eq.trans ?_ (Cert.Sage.hid_eq _ _ (degR_ne_zero _) _ _ _ _ _)
  exact Cert.Sage.hidK_congr _ (nbr_eq m c _ _ (H1_eq m c)) (funext (inv_eq m c)) (H1_eq m c) rfl rfl
    (funext fun q => Cert.KernelIdeal.GlueReads.bias64_apply _ q)

/-- The kernel program's result is the reference's, as terms of one memory's argument arrays. -/
theorem result_eq : Cert.KernelIdeal.Fold.KOut m c
    = val_main_v71 (F := Ideal) (X m c) (E m c) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  rw [out]
  exact Cert.Sage.outK_congr (H0_eq m c) (H1_eq m c) (H2_eq m c) (Cert.KernelIdeal.GlueReads.rows0 _)
    (Cert.KernelIdeal.GlueReads.rows64 _) (Cert.KernelIdeal.GlueReads.rows128 _)
    (funext fun q => Cert.KernelIdeal.GlueReads.bias32_apply _ q)

end Cert.Bridge

end
-- ==== Proof.lean ====
/-
  A three-layer mean-aggregation graph network over 100000 nodes and 1200000 edges, computed two ways.

  Every layer takes the node features `h`, sums at each node the feature rows of the nodes with an edge into it (a
  gather at the edges' sources and a scatter-add at their destinations), divides by the node's degree `max(1, in-degree)`,
  and returns `relu(mean · Wl + bl + h · Wr)`; the three layers' outputs, side by side, are multiplied by a `192 × 32`
  matrix and a bias is added. The reference does exactly this on the host. The kernel program computes the reciprocal
  degree once, does each layer's dense part in a pipelined region over blocks of rows (the third layer fused with the
  output product, the `192 × 32` matrix cut in three row blocks), in narrower float formats, and adds the bias last.

  On the extended reals a change of float format is the identity, sums may be regrouped and reordered freely,
  `x · (1 / d) = x / d` as soon as `d ≠ 0`, and the degree is at least 1: so the two programs' results are one function of
  the arguments, with no use of the inputs' finiteness. The kernel program's result is read off its run region by region
  (each region's result array is the layer of the arrays the region is entered with), the reference's off its run one
  operation at a time; the neighbour sums and degrees are the same terms on both sides and are never opened.
  The three frames are the programs' runs with the results dropped; the idealization rewrote no operation.
-/
import proofs.«181150_j87256555585790_2_alg».proof.Defs
import proofs.«181150_j87256555585790_2_alg».proof.Proof.Gen.Kernel
import proofs.«181150_j87256555585790_2_alg».proof.Proof.Gen.Kernel.Skeleton
import proofs.«181150_j87256555585790_2_alg».proof.Proof.Gen.Kernel.Launch
import proofs.«181150_j87256555585790_2_alg».proof.Proof.Gen.Kernel.Points
import proofs.«181150_j87256555585790_2_alg».proof.Proof.Gen.Kernel.Frame
import proofs.«181150_j87256555585790_2_alg».proof.Proof.Gen.KernelIdeal
import proofs.«181150_j87256555585790_2_alg».proof.Proof.Gen.KernelIdeal.Skeleton
import proofs.«181150_j87256555585790_2_alg».proof.Proof.Gen.KernelIdeal.Launch
import proofs.«181150_j87256555585790_2_alg».proof.Proof.Gen.KernelIdeal.Points
import proofs.«181150_j87256555585790_2_alg».proof.Proof.Gen.KernelIdeal.Frame
import proofs.«181150_j87256555585790_2_alg».proof.Proof.Gen.ReferenceIdeal
import proofs.«181150_j87256555585790_2_alg».proof.Proof.Gen.Pre_finite_inputs
import proofs.«181150_j87256555585790_2_alg».proof.Proof.Gen.ReferenceIdeal.Run
import proofs.«181150_j87256555585790_2_alg».proof.Proof.Gen.ReferenceIdeal.Read
import proofs.«181150_j87256555585790_2_alg».proof.Proof.KRun
import proofs.«181150_j87256555585790_2_alg».proof.Proof.Fold
import proofs.«181150_j87256555585790_2_alg».proof.Proof.Bridge
import Idealize.ShloMosaic.Adequacy
import Idealize.ShloMosaic.Init

noncomputable section

namespace Cert.Proof

open Idealize.ShloMosaic Idealize.SL.Sem

/-- The kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the output layer of the three hidden layers: the
    kernel program by its run read region by region, the reference by its run read operation by operation, and the two
    terms are one function of the arguments. -/
theorem algebraic : Cert.algebraic_KernelIdeal_ReferenceIdeal := by
  intro m ρ m' ρ' _ hagree
  refine ⟨fun c => Cert.KernelIdeal.Fold.KOut m c, ?_, ?_⟩
  · exact (θ_run Cert.KernelIdeal.defs _ _).mono
      (fun r h c => ⟨(h c).1.trans (Cert.KernelIdeal.Fold.kernel_value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v71_eq, a0, a1, a2, a3, a4, a5, a6, a7, a8, a9, a10, a11, a12]
    exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
